-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1000 : Shape := ⟨2, ![512, 1000]⟩
abbrev S512 : Shape := ⟨1, ![512]⟩
abbrev S64x500000 : Shape := ⟨2, ![64, 500000]⟩
abbrev S64x9 : Shape := ⟨2, ![64, 9]⟩
abbrev S_ : Shape := ⟨0, ![]⟩

class Facts : Prop where
  bcast_S_S512x1000 : S_.BroadcastsInDim S512x1000 (![] : Fin 0 → Fin S512x1000.rank)
  reducesTo_S512x1000_S_d0_1 : S512x1000.ReducesTo [0, 1] S_
  h_S_ : 0 < S_.numel
  bcast_S_S64x500000 : S_.BroadcastsInDim S64x500000 (![] : Fin 0 → Fin S64x500000.rank)
  reducesTo_S64x500000_S_d0_1 : S64x500000.ReducesTo [0, 1] S_
  bcast_S_S64x9 : S_.BroadcastsInDim S64x9 (![] : Fin 0 → Fin S64x9.rank)
  reducesTo_S64x9_S_d0_1 : S64x9.ReducesTo [0, 1] S_

variable [Facts]

def fn_part1 {F : FTy → Type} [FloatOps F] (main_v13 : IVec S_ 1) (main_v16 : IVec S64x9 1) : IVec S_ 1 :=
  let main_c_5 : IVec S_ 1 := constantI S_ 1 1#1
  let main_v17 : IVec S_ 1 := (fun x v => Host.reduce IntOp.andi x v reducesTo_S64x9_S_d0_1 h_S_) main_v16 main_c_5
  let main_v18 : IVec S_ 1 := andi main_v13 main_v17
  main_v18

def fn {F : FTy → Type} [FloatOps F] (main_arg0 : FVec F S512x1000 .f32) (main_arg1 : IVec S512 32) (main_arg2 : FVec F S64x500000 .f32) (main_arg3 : FVec F S64x500000 .f32) (main_arg4 : FVec F S64x9 .f32) : IVec S_ 1 :=
  let main_v0 : FVec F S512x1000 .f32 := Host.absf main_arg0
  let main_cst : FVec F S_ .f32 := constant S_ .f32 0x7F800000#32
  let main_v1 : FVec F S512x1000 .f32 := broadcastInDim S512x1000 ![] bcast_S_S512x1000 main_cst
  let main_v2 : IVec S512x1000 1 := cmpf .olt main_v0 main_v1
  let main_c : IVec S_ 1 := constantI S_ 1 1#1
  let main_v3 : IVec S_ 1 := (fun x v => Host.reduce IntOp.andi x v reducesTo_S512x1000_S_d0_1 h_S_) main_v2 main_c
  let main_v4 : FVec F S64x500000 .f32 := Host.absf main_arg2
  let main_cst_0 : FVec F S_ .f32 := constant S_ .f32 0x7F800000#32
  let main_v5 : FVec F S64x500000 .f32 := broadcastInDim S64x500000 ![] bcast_S_S64x500000 main_cst_0
  let main_v6 : IVec S64x500000 1 := cmpf .olt main_v4 main_v5
  let main_c_1 : IVec S_ 1 := constantI S_ 1 1#1
  let main_v7 : IVec S_ 1 := (fun x v => Host.reduce IntOp.andi x v reducesTo_S64x500000_S_d0_1 h_S_) main_v6 main_c_1
  let main_v8 : IVec S_ 1 := andi main_v3 main_v7
  let main_v9 : FVec F S64x500000 .f32 := Host.absf main_arg3
  let main_cst_2 : FVec F S_ .f32 := constant S_ .f32 0x7F800000#32
  let main_v10 : FVec F S64x500000 .f32 := broadcastInDim S64x500000 ![] bcast_S_S64x500000 main_cst_2
  let main_v11 : IVec S64x500000 1 := cmpf .olt main_v9 main_v10
  let main_c_3 : IVec S_ 1 := constantI S_ 1 1#1
  let main_v12 : IVec S_ 1 := (fun x v => Host.reduce IntOp.andi x v reducesTo_S64x500000_S_d0_1 h_S_) main_v11 main_c_3
  let main_v13 : IVec S_ 1 := andi main_v8 main_v12
  let main_v14 : FVec F S64x9 .f32 := Host.absf main_arg4
  let main_cst_4 : FVec F S_ .f32 := constant S_ .f32 0x7F800000#32
  let main_v15 : FVec F S64x9 .f32 := broadcastInDim S64x9 ![] bcast_S_S64x9 main_cst_4
  let main_v16 : IVec S64x9 1 := cmpf .olt main_v14 main_v15
  fn_part1 (F := F) main_v13 main_v16
-- ==== Kernel.lean ====
abbrev S512x1000 : Shape := ⟨2, ![512, 1000]⟩
abbrev S512 : Shape := ⟨1, ![512]⟩
abbrev S64x500000 : Shape := ⟨2, ![64, 500000]⟩
abbrev S64x9 : Shape := ⟨2, ![64, 9]⟩
abbrev S_ : Shape := ⟨0, ![]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩
abbrev S1x1000 : Shape := ⟨2, ![1, 1000]⟩
abbrev S64x4 : Shape := ⟨2, ![64, 4]⟩
abbrev S32x25088 : Shape := ⟨2, ![32, 25088]⟩
abbrev S32x4 : Shape := ⟨2, ![32, 4]⟩
abbrev S32 : Shape := ⟨1, ![32]⟩
abbrev S32x1 : Shape := ⟨2, ![32, 1]⟩
abbrev S64x1 : Shape := ⟨2, ![64, 1]⟩
abbrev S64 : Shape := ⟨1, ![64]⟩
abbrev S5 : Shape := ⟨1, ![5]⟩
abbrev S64x5 : Shape := ⟨2, ![64, 5]⟩

abbrev nBuf : Space → Nat
  | .hbm => 158
  | .vmem => 7
  | .smem => 0
  | _ => 0

abbrev hbmTy0_0 (i : Nat) : BufTy := match i % 128 with
  | 0 => ⟨S512x1000, .f32⟩
  | 1 => ⟨S512, .i32⟩
  | 2 => ⟨S64x500000, .f32⟩
  | 3 => ⟨S64x500000, .f32⟩
  | 4 => ⟨S64x9, .f32⟩
  | 5 => ⟨S_, .f32⟩
  | 6 => ⟨S512, .f32⟩
  | 7 => ⟨S_, .f32⟩
  | 8 => ⟨S512, .f32⟩
  | 9 => ⟨S512, .f32⟩
  | 10 => ⟨S512x1, .f32⟩
  | 11 => ⟨S512x1000, .f32⟩
  | 12 => ⟨S512x1000, .f32⟩
  | 13 => ⟨S512x1000, .f32⟩
  | 14 => ⟨S_, .f32⟩
  | 15 => ⟨S512, .f32⟩
  | 16 => ⟨S512x1, .f32⟩
  | 17 => ⟨S512x1, .f32⟩
  | 18 => ⟨S512x1000, .f32⟩
  | 19 => ⟨S512x1000, .f32⟩
  | 20 => ⟨S512x1000, .f32⟩
  | 21 => ⟨S512x1, .i32⟩
  | 22 => ⟨S_, .i32⟩
  | 23 => ⟨S512x1, .i32⟩
  | 24 => ⟨S512x1, .i1⟩
  | 25 => ⟨S_, .i32⟩
  | 26 => ⟨S512x1, .i32⟩
  | 27 => ⟨S512x1, .i32⟩
  | 28 => ⟨S512x1, .i32⟩
  | 29 => ⟨S512x1x1, .i32⟩
  | 30 => ⟨S1, .i32⟩
  | 31 => ⟨S_, .i32⟩
  | 32 => ⟨S512x1x1, .i32⟩
  | 33 => ⟨S512x1x1, .i1⟩
  | 34 => ⟨S1x1x1, .i32⟩
  | 35 => ⟨S512x1x1, .i32⟩
  | 36 => ⟨S512x1x1, .i1⟩
  | 37 => ⟨S512x1x1, .i1⟩
  | 38 => ⟨S_, .i1⟩
  | 39 => ⟨S512x1, .i1⟩
  | 40 => ⟨S512x1, .f32⟩
  | 41 => ⟨S_, .f32⟩
  | 42 => ⟨S512x1, .f32⟩
  | 43 => ⟨S512x1, .f32⟩
  | 44 => ⟨S_, .f32⟩
  | 45 => ⟨S_, .f32⟩
  | 46 => ⟨S_, .f32⟩
  | 47 => ⟨S_, .f32⟩
  | 48 => ⟨S_, .f32⟩
  | 49 => ⟨S512x1, .i32⟩
  | 50 => ⟨S_, .i32⟩
  | 51 => ⟨S512x1, .i32⟩
  | 52 => ⟨S512x1, .i1⟩
  | 53 => ⟨S_, .i32⟩
  | 54 => ⟨S512x1, .i32⟩
  | 55 => ⟨S512x1, .i32⟩
  | 56 => ⟨S512x1, .i32⟩
  | 57 => ⟨S512x1x1, .i32⟩
  | 58 => ⟨S1, .i32⟩
  | 59 => ⟨S_, .i32⟩
  | 60 => ⟨S512x1x1, .i32⟩
  | 61 => ⟨S512x1x1, .i1⟩
  | 62 => ⟨S1x1x1, .i32⟩
  | 63 => ⟨S512x1x1, .i32⟩
  | 64 => ⟨S512x1x1, .i1⟩
  | 65 => ⟨S512x1x1, .i1⟩
  | 66 => ⟨S_, .i1⟩
  | 67 => ⟨S512x1, .i1⟩
  | 68 => ⟨S512x1, .f32⟩
  | 69 => ⟨S_, .f32⟩
  | 70 => ⟨S512x1, .f32⟩
  | 71 => ⟨S512x1, .f32⟩
  | 72 => ⟨S_, .f32⟩
  | 73 => ⟨S512x1, .f32⟩
  | 74 => ⟨S512x1, .f32⟩
  | 75 => ⟨S512x1000, .f32⟩
  | 76 => ⟨S512x1000, .f32⟩
  | 77 => ⟨S_, .f32⟩
  | 78 => ⟨S512x1000, .f32⟩
  | 79 => ⟨S512x1000, .f32⟩
  | 80 => ⟨S512x1, .i32⟩
  | 81 => ⟨S1x1000, .i32⟩
  | 82 => ⟨S512x1000, .i32⟩
  | 83 => ⟨S512x1000, .i32⟩
  | 84 => ⟨S512x1000, .i1⟩
  | 85 => ⟨S512x1000, .f32⟩
  | 86 => ⟨S_, .f32⟩
  | 87 => ⟨S512x1000, .f32⟩
  | 88 => ⟨S512x1000, .f32⟩
  | 89 => ⟨S512x1000, .f32⟩
  | 90 => ⟨S_, .f32⟩
  | 91 => ⟨S512, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S512x1000, .f32⟩
  | 101 => ⟨S512x1000, .f32⟩
  | 102 => ⟨S_, .f32⟩
  | 103 => ⟨S512x1000, .f32⟩
  | 104 => ⟨S512x1000, .f32⟩
  | 105 => ⟨S_, .f32⟩
  | 106 => ⟨S_, .f32⟩
  | 107 => ⟨S_, .f32⟩
  | 108 => ⟨S_, .f32⟩
  | 109 => ⟨S512x1000, .f32⟩
  | 110 => ⟨S_, .f32⟩
  | 111 => ⟨S512, .f32⟩
  | 112 => ⟨S_, .f32⟩
  | 113 => ⟨S_, .f32⟩
  | 114 => ⟨S_, .f32⟩
  | 115 => ⟨S_, .f32⟩
  | 116 => ⟨S_, .f32⟩
  | 117 => ⟨S512x1000, .f32⟩
  | 118 => ⟨S_, .f32⟩
  | 119 => ⟨S_, .f32⟩
  | 120 => ⟨S_, .f32⟩
  | 121 => ⟨S64x4, .f32⟩
  | 122 => ⟨S64x1, .f32⟩
  | 123 => ⟨S64, .f32⟩
  | 124 => ⟨S64x1, .f32⟩
  | 125 => ⟨S64, .f32⟩
  | 126 => ⟨S64, .f32⟩
  | 127 => ⟨S64x1, .f32⟩
  | _ => ⟨S512x1000, .f32⟩

abbrev hbmTy0_1 (i : Nat) : BufTy := match i % 128 with
  | 0 => ⟨S64, .f32⟩
  | 1 => ⟨S64x1, .f32⟩
  | 2 => ⟨S64, .f32⟩
  | 3 => ⟨S64, .f32⟩
  | 4 => ⟨S1, .f32⟩
  | 5 => ⟨S1, .f32⟩
  | 6 => ⟨S1, .f32⟩
  | 7 => ⟨S1, .f32⟩
  | 8 => ⟨S1, .f32⟩
  | 9 => ⟨S5, .f32⟩
  | 10 => ⟨S64x5, .f32⟩
  | 11 => ⟨S64x1, .f32⟩
  | 12 => ⟨S64x1, .f32⟩
  | 13 => ⟨S64x1, .f32⟩
  | 14 => ⟨S64x1, .f32⟩
  | 15 => ⟨S64x4, .f32⟩
  | 16 => ⟨S64x9, .f32⟩
  | 17 => ⟨S64x9, .f32⟩
  | 18 => ⟨S64x9, .f32⟩
  | 19 => ⟨S_, .f32⟩
  | 20 => ⟨S64x9, .f32⟩
  | 21 => ⟨S64x9, .f32⟩
  | 22 => ⟨S_, .f32⟩
  | 23 => ⟨S64x9, .f32⟩
  | 24 => ⟨S64x9, .f32⟩
  | 25 => ⟨S64x9, .f32⟩
  | 26 => ⟨S_, .f32⟩
  | 27 => ⟨S_, .f32⟩
  | 28 => ⟨S_, .f32⟩
  | 29 => ⟨S_, .f32⟩
  | _ => ⟨S512x1000, .f32⟩

abbrev hbmTy (i : Nat) : BufTy := match i / 128 with
  | 0 => hbmTy0_0 i
  | 1 => hbmTy0_1 i
  | _ => ⟨S512x1000, .f32⟩

abbrev bufTy : (tb : Table) → Fin (tcTables nBuf tb) → BufTy
  | .hbm, ⟨i, _⟩ => hbmTy i
  | .local _ .vmem, ⟨0, _⟩ => ⟨S32x25088, .f32⟩
  | .local _ .vmem, ⟨1, _⟩ => ⟨S32x25088, .f32⟩
  | .local _ .vmem, ⟨2, _⟩ => ⟨S32x25088, .f32⟩
  | .local _ .vmem, ⟨3, _⟩ => ⟨S32x25088, .f32⟩
  | .local _ .vmem, ⟨4, _⟩ => ⟨S32x4, .f32⟩
  | .local _ .vmem, ⟨5, _⟩ => ⟨S32x4, .f32⟩
  | .local _ .vmem, ⟨6, _⟩ => ⟨S32x4, .f32⟩
  | _, _ => ⟨S512x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_cst_0 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v8 : Ref sig .tc := ⟨.hbm, 71, rfl⟩
abbrev main_cst_1 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_cst_2 : Ref sig .tc := ⟨.hbm, 77, rfl⟩
abbrev main_v13 : Ref sig .tc := ⟨.hbm, 78, rfl⟩
abbrev main_v14 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v15 : Ref sig .tc := ⟨.hbm, 85, rfl⟩
abbrev main_cst_3 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_4 : Ref sig .tc := ⟨.hbm, 90, rfl⟩
abbrev main_v19 : Ref sig .tc := ⟨.hbm, 91, rfl⟩
abbrev main_cst_5 : Ref sig .tc := ⟨.hbm, 92, rfl⟩
abbrev main_v20 : Ref sig .tc := ⟨.hbm, 93, rfl⟩
abbrev main_cst_6 : Ref sig .tc := ⟨.hbm, 94, rfl⟩
abbrev main_v21 : Ref sig .tc := ⟨.hbm, 95, rfl⟩
abbrev main_cst_7 : Ref sig .tc := ⟨.hbm, 96, rfl⟩
abbrev main_v22 : Ref sig .tc := ⟨.hbm, 97, rfl⟩
abbrev main_cst_8 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_cst_9 : Ref sig .tc := ⟨.hbm, 102, rfl⟩
abbrev main_v26 : Ref sig .tc := ⟨.hbm, 103, rfl⟩
abbrev main_v27 : Ref sig .tc := ⟨.hbm, 104, rfl⟩
abbrev main_cst_10 : Ref sig .tc := ⟨.hbm, 105, rfl⟩
abbrev main_v28 : Ref sig .tc := ⟨.hbm, 106, rfl⟩
abbrev main_cst_11 : Ref sig .tc := ⟨.hbm, 107, rfl⟩
abbrev main_v29 : Ref sig .tc := ⟨.hbm, 108, rfl⟩
abbrev main_v30 : Ref sig .tc := ⟨.hbm, 109, rfl⟩
abbrev main_cst_12 : Ref sig .tc := ⟨.hbm, 110, rfl⟩
abbrev main_v31 : Ref sig .tc := ⟨.hbm, 111, rfl⟩
abbrev main_cst_13 : Ref sig .tc := ⟨.hbm, 112, rfl⟩
abbrev main_v32 : Ref sig .tc := ⟨.hbm, 113, rfl⟩
abbrev main_cst_14 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_cst_15 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_cst_16 : Ref sig .tc := ⟨.hbm, 147, rfl⟩
abbrev main_v64 : Ref sig .tc := ⟨.hbm, 148, rfl⟩
abbrev main_v65 : Ref sig .tc := ⟨.hbm, 149, rfl⟩
abbrev main_cst_17 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_cst_18 : Ref sig .tc := ⟨.hbm, 154, rfl⟩
abbrev main_v69 : Ref sig .tc := ⟨.hbm, 155, rfl⟩
abbrev main_cst_19 : Ref sig .tc := ⟨.hbm, 156, rfl⟩
abbrev main_v70 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v34 : BitVec 1 := Scalar.cmpi .eq arg1 c19_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S512x1000_S512_d1 : S512x1000.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x1000_0_1 : S512x1.BroadcastsInDim S512x1000 (![0, 1] : Fin 2 → Fin S512x1000.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  bcast_S_S512x1000 : S_.BroadcastsInDim S512x1000 (![] : Fin 0 → Fin S512x1000.rank)
  bcast_S1x1000_S512x1000_0_1 : S1x1000.BroadcastsInDim S512x1000 (![0, 1] : Fin 2 → Fin S512x1000.rank)
  reducesTo_S512_S_d0 : S512.ReducesTo [0] S_
  reducesTo_S512x1000_S_d0_1 : S512x1000.ReducesTo [0, 1] S_
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x25088_S32x25088_0_0 : ∀ a, (![0, 0] : Fin 2 → Nat) a + S32x25088.size a ≤ S32x25088.size a
  h_S32x25088 : 0 < S32x25088.numel
  iota_S32x25088_d1_w32 : S32x25088.Iotas .tc 32 [1]
  reduces_S32x25088_S32 : S32x25088.Reduces [1] S32
  shapeCasts_S32_S32x1 : S32.ShapeCasts S32x1
  concatenates_S32x1_S32x1_S32x1_S32x1_S32x4_d1 : Shape.Concatenates [S32x1, S32x1, S32x1, S32x1] S32x4 1
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S1 : S_.BroadcastsInDim S1 (![] : Fin 0 → Fin S1.rank)
  concatenates_S1_S1_S1_S1_S1_S5_d0 : Shape.Concatenates [S1, S1, S1, S1, S1] S5 0
  bcast_S5_S64x5_1 : S5.BroadcastsInDim S64x5 (![1] : Fin 1 → Fin S64x5.rank)
  bcast_S64_S64x1_0 : S64.BroadcastsInDim S64x1 (![0] : Fin 1 → Fin S64x1.rank)
  concatenates_S64x1_S64x1_S64x1_S64x1_S64x4_d1 : Shape.Concatenates [S64x1, S64x1, S64x1, S64x1] S64x4 1
  concatenates_S64x5_S64x4_S64x9_d1 : Shape.Concatenates [S64x5, S64x4] S64x9 1
  bcast_S_S64x9 : S_.BroadcastsInDim S64x9 (![] : Fin 0 → Fin S64x9.rank)
  reducesTo_S64x9_S_d0_1 : S64x9.ReducesTo [0, 1] S_
  gather_S512x1000_S512x1x1_S512x1_n_1_0_0_1_2_11_wf : GatherDims.WF S512x1000 S512x1x1 S512x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x25088.size a < S64x500000.size a
  hwx0_0 : ∀ i : grid0.Coords, EltTy.bits .f32 = 32 ∨ (Rect.unit (s := S64x500000) (fun a => cc0_transform_0 i a * S32x25088.size a) (fun a => (Pipeline.Clip.of (cc0_transform_0 i a) (S32x25088.size a) (S64x500000.size a)).extent (S32x25088.size a)) fun a => Pipeline.Clip.inb (Pipeline.Clip.ok_of (hstart0_0 i a))).WholeWords (EltTy.packing .f32)
  hwxs0_0 : ∀ i : grid0.Coords, EltTy.bits .f32 = 32 ∨ (Rect.unit (s := S32x25088) (fun _ => 0) (fun a => (Pipeline.Clip.of (cc0_transform_0 i a) (S32x25088.size a) (S64x500000.size a)).extent (S32x25088.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x25088.size a < S64x500000.size a
  hwx0_1 : ∀ i : grid0.Coords, EltTy.bits .f32 = 32 ∨ (Rect.unit (s := S64x500000) (fun a => cc0_transform_1 i a * S32x25088.size a) (fun a => (Pipeline.Clip.of (cc0_transform_1 i a) (S32x25088.size a) (S64x500000.size a)).extent (S32x25088.size a)) fun a => Pipeline.Clip.inb (Pipeline.Clip.ok_of (hstart0_1 i a))).WholeWords (EltTy.packing .f32)
  hwxs0_1 : ∀ i : grid0.Coords, EltTy.bits .f32 = 32 ∨ (Rect.unit (s := S32x25088) (fun _ => 0) (fun a => (Pipeline.Clip.of (cc0_transform_1 i a) (S32x25088.size a) (S64x500000.size a)).extent (S32x25088.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S64x4.size a
  hwx0_2 : ∀ i : grid0.Coords, EltTy.bits .f32 = 32 ∨ (Rect.block (s := S64x4) S32x4.size (cc0_transform_2 i) (hinb0_2 i)).WholeWords (EltTy.packing .f32)

variable [Facts₀]

def gather_S512x1000_S512x1x1_S512x1_n_1_0_0_1_2_11 : GatherDims S512x1000 S512x1x1 S512x1 where
  offsetDims := []
  collapsedSliceDims := [1]
  operandBatchingDims := [0]
  startIndicesBatchingDims := [0]
  startIndexMap := [1]
  indexVectorDim := 2
  sliceSizes := ![1, 1]
  wf := gather_S512x1000_S512x1x1_S512x1_n_1_0_0_1_2_11_wf

abbrev win0_0 : Pipeline.Window sig grid0 :=
  Pipeline.Window.ofSpecClip (Memref.whole main_arg2) S32x25088.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S32x25088.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v38) S32x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x1000 : Shape := ⟨2, ![512, 1000]⟩
abbrev S512 : Shape := ⟨1, ![512]⟩
abbrev S64x500000 : Shape := ⟨2, ![64, 500000]⟩
abbrev S64x9 : Shape := ⟨2, ![64, 9]⟩
abbrev S_ : Shape := ⟨0, ![]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩
abbrev S1x1000 : Shape := ⟨2, ![1, 1000]⟩
abbrev S64 : Shape := ⟨1, ![64]⟩
abbrev S5 : Shape := ⟨1, ![5]⟩
abbrev S64x5 : Shape := ⟨2, ![64, 5]⟩
abbrev S64x1 : Shape := ⟨2, ![64, 1]⟩
abbrev S64x4 : Shape := ⟨2, ![64, 4]⟩

abbrev nBuf : Space → Nat
  | .hbm => 162
  | .vmem => 0
  | .smem => 0
  | _ => 0

abbrev hbmTy0_0 (i : Nat) : BufTy := match i % 128 with
  | 0 => ⟨S512x1000, .f32⟩
  | 1 => ⟨S512, .i32⟩
  | 2 => ⟨S64x500000, .f32⟩
  | 3 => ⟨S64x500000, .f32⟩
  | 4 => ⟨S64x9, .f32⟩
  | 5 => ⟨S_, .f32⟩
  | 6 => ⟨S512, .f32⟩
  | 7 => ⟨S_, .f32⟩
  | 8 => ⟨S512, .f32⟩
  | 9 => ⟨S512, .f32⟩
  | 10 => ⟨S512x1, .f32⟩
  | 11 => ⟨S512x1000, .f32⟩
  | 12 => ⟨S512x1000, .f32⟩
  | 13 => ⟨S512x1000, .f32⟩
  | 14 => ⟨S_, .f32⟩
  | 15 => ⟨S512, .f32⟩
  | 16 => ⟨S512x1, .f32⟩
  | 17 => ⟨S512x1, .f32⟩
  | 18 => ⟨S512x1000, .f32⟩
  | 19 => ⟨S512x1000, .f32⟩
  | 20 => ⟨S512x1000, .f32⟩
  | 21 => ⟨S512x1, .i32⟩
  | 22 => ⟨S_, .i32⟩
  | 23 => ⟨S512x1, .i32⟩
  | 24 => ⟨S512x1, .i1⟩
  | 25 => ⟨S_, .i32⟩
  | 26 => ⟨S512x1, .i32⟩
  | 27 => ⟨S512x1, .i32⟩
  | 28 => ⟨S512x1, .i32⟩
  | 29 => ⟨S512x1x1, .i32⟩
  | 30 => ⟨S1, .i32⟩
  | 31 => ⟨S_, .i32⟩
  | 32 => ⟨S512x1x1, .i32⟩
  | 33 => ⟨S512x1x1, .i1⟩
  | 34 => ⟨S1x1x1, .i32⟩
  | 35 => ⟨S512x1x1, .i32⟩
  | 36 => ⟨S512x1x1, .i1⟩
  | 37 => ⟨S512x1x1, .i1⟩
  | 38 => ⟨S_, .i1⟩
  | 39 => ⟨S512x1, .i1⟩
  | 40 => ⟨S512x1, .f32⟩
  | 41 => ⟨S_, .f32⟩
  | 42 => ⟨S512x1, .f32⟩
  | 43 => ⟨S512x1, .f32⟩
  | 44 => ⟨S_, .f32⟩
  | 45 => ⟨S_, .f32⟩
  | 46 => ⟨S_, .f32⟩
  | 47 => ⟨S_, .f32⟩
  | 48 => ⟨S_, .f32⟩
  | 49 => ⟨S512x1, .i32⟩
  | 50 => ⟨S_, .i32⟩
  | 51 => ⟨S512x1, .i32⟩
  | 52 => ⟨S512x1, .i1⟩
  | 53 => ⟨S_, .i32⟩
  | 54 => ⟨S512x1, .i32⟩
  | 55 => ⟨S512x1, .i32⟩
  | 56 => ⟨S512x1, .i32⟩
  | 57 => ⟨S512x1x1, .i32⟩
  | 58 => ⟨S1, .i32⟩
  | 59 => ⟨S_, .i32⟩
  | 60 => ⟨S512x1x1, .i32⟩
  | 61 => ⟨S512x1x1, .i1⟩
  | 62 => ⟨S1x1x1, .i32⟩
  | 63 => ⟨S512x1x1, .i32⟩
  | 64 => ⟨S512x1x1, .i1⟩
  | 65 => ⟨S512x1x1, .i1⟩
  | 66 => ⟨S_, .i1⟩
  | 67 => ⟨S512x1, .i1⟩
  | 68 => ⟨S512x1, .f32⟩
  | 69 => ⟨S_, .f32⟩
  | 70 => ⟨S512x1, .f32⟩
  | 71 => ⟨S512x1, .f32⟩
  | 72 => ⟨S_, .f32⟩
  | 73 => ⟨S512x1, .f32⟩
  | 74 => ⟨S512x1, .f32⟩
  | 75 => ⟨S512x1000, .f32⟩
  | 76 => ⟨S512x1000, .f32⟩
  | 77 => ⟨S_, .f32⟩
  | 78 => ⟨S512x1000, .f32⟩
  | 79 => ⟨S512x1000, .f32⟩
  | 80 => ⟨S512x1, .i32⟩
  | 81 => ⟨S1x1000, .i32⟩
  | 82 => ⟨S512x1000, .i32⟩
  | 83 => ⟨S512x1000, .i32⟩
  | 84 => ⟨S512x1000, .i1⟩
  | 85 => ⟨S512x1000, .f32⟩
  | 86 => ⟨S_, .f32⟩
  | 87 => ⟨S512x1000, .f32⟩
  | 88 => ⟨S512x1000, .f32⟩
  | 89 => ⟨S512x1000, .f32⟩
  | 90 => ⟨S_, .f32⟩
  | 91 => ⟨S512, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S512x1000, .f32⟩
  | 101 => ⟨S512x1000, .f32⟩
  | 102 => ⟨S_, .f32⟩
  | 103 => ⟨S512x1000, .f32⟩
  | 104 => ⟨S512x1000, .f32⟩
  | 105 => ⟨S_, .f32⟩
  | 106 => ⟨S_, .f32⟩
  | 107 => ⟨S_, .f32⟩
  | 108 => ⟨S_, .f32⟩
  | 109 => ⟨S512x1000, .f32⟩
  | 110 => ⟨S_, .f32⟩
  | 111 => ⟨S512, .f32⟩
  | 112 => ⟨S_, .f32⟩
  | 113 => ⟨S_, .f32⟩
  | 114 => ⟨S_, .f32⟩
  | 115 => ⟨S_, .f32⟩
  | 116 => ⟨S_, .f32⟩
  | 117 => ⟨S512x1000, .f32⟩
  | 118 => ⟨S_, .f32⟩
  | 119 => ⟨S_, .f32⟩
  | 120 => ⟨S_, .f32⟩
  | 121 => ⟨S64x500000, .f32⟩
  | 122 => ⟨S_, .f32⟩
  | 123 => ⟨S64, .f32⟩
  | 124 => ⟨S64x500000, .f32⟩
  | 125 => ⟨S_, .f32⟩
  | 126 => ⟨S64, .f32⟩
  | 127 => ⟨S64, .f32⟩
  | _ => ⟨S512x1000, .f32⟩

abbrev hbmTy0_1 (i : Nat) : BufTy := match i % 128 with
  | 0 => ⟨S64x500000, .f32⟩
  | 1 => ⟨S64x500000, .f32⟩
  | 2 => ⟨S_, .f32⟩
  | 3 => ⟨S64, .f32⟩
  | 4 => ⟨S64x500000, .f32⟩
  | 5 => ⟨S_, .f32⟩
  | 6 => ⟨S64, .f32⟩
  | 7 => ⟨S64, .f32⟩
  | 8 => ⟨S1, .f32⟩
  | 9 => ⟨S1, .f32⟩
  | 10 => ⟨S1, .f32⟩
  | 11 => ⟨S1, .f32⟩
  | 12 => ⟨S1, .f32⟩
  | 13 => ⟨S5, .f32⟩
  | 14 => ⟨S64x5, .f32⟩
  | 15 => ⟨S64x1, .f32⟩
  | 16 => ⟨S64x1, .f32⟩
  | 17 => ⟨S64x1, .f32⟩
  | 18 => ⟨S64x1, .f32⟩
  | 19 => ⟨S64x4, .f32⟩
  | 20 => ⟨S64x9, .f32⟩
  | 21 => ⟨S64x9, .f32⟩
  | 22 => ⟨S64x9, .f32⟩
  | 23 => ⟨S_, .f32⟩
  | 24 => ⟨S64x9, .f32⟩
  | 25 => ⟨S64x9, .f32⟩
  | 26 => ⟨S_, .f32⟩
  | 27 => ⟨S64x9, .f32⟩
  | 28 => ⟨S64x9, .f32⟩
  | 29 => ⟨S64x9, .f32⟩
  | 30 => ⟨S_, .f32⟩
  | 31 => ⟨S_, .f32⟩
  | 32 => ⟨S_, .f32⟩
  | 33 => ⟨S_, .f32⟩
  | _ => ⟨S512x1000, .f32⟩

abbrev hbmTy (i : Nat) : BufTy := match i / 128 with
  | 0 => hbmTy0_0 i
  | 1 => hbmTy0_1 i
  | _ => ⟨S512x1000, .f32⟩

abbrev bufTy : (tb : Table) → Fin (tcTables nBuf tb) → BufTy
  | .hbm, ⟨i, _⟩ => hbmTy i
  | _, _ => ⟨S512x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_cst_0 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v8 : Ref sig .tc := ⟨.hbm, 71, rfl⟩
abbrev main_cst_1 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_cst_2 : Ref sig .tc := ⟨.hbm, 77, rfl⟩
abbrev main_v13 : Ref sig .tc := ⟨.hbm, 78, rfl⟩
abbrev main_v14 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v15 : Ref sig .tc := ⟨.hbm, 85, rfl⟩
abbrev main_cst_3 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_4 : Ref sig .tc := ⟨.hbm, 90, rfl⟩
abbrev main_v19 : Ref sig .tc := ⟨.hbm, 91, rfl⟩
abbrev main_cst_5 : Ref sig .tc := ⟨.hbm, 92, rfl⟩
abbrev main_v20 : Ref sig .tc := ⟨.hbm, 93, rfl⟩
abbrev main_cst_6 : Ref sig .tc := ⟨.hbm, 94, rfl⟩
abbrev main_v21 : Ref sig .tc := ⟨.hbm, 95, rfl⟩
abbrev main_cst_7 : Ref sig .tc := ⟨.hbm, 96, rfl⟩
abbrev main_v22 : Ref sig .tc := ⟨.hbm, 97, rfl⟩
abbrev main_cst_8 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_cst_9 : Ref sig .tc := ⟨.hbm, 102, rfl⟩
abbrev main_v26 : Ref sig .tc := ⟨.hbm, 103, rfl⟩
abbrev main_v27 : Ref sig .tc := ⟨.hbm, 104, rfl⟩
abbrev main_cst_10 : Ref sig .tc := ⟨.hbm, 105, rfl⟩
abbrev main_v28 : Ref sig .tc := ⟨.hbm, 106, rfl⟩
abbrev main_cst_11 : Ref sig .tc := ⟨.hbm, 107, rfl⟩
abbrev main_v29 : Ref sig .tc := ⟨.hbm, 108, rfl⟩
abbrev main_v30 : Ref sig .tc := ⟨.hbm, 109, rfl⟩
abbrev main_cst_12 : Ref sig .tc := ⟨.hbm, 110, rfl⟩
abbrev main_v31 : Ref sig .tc := ⟨.hbm, 111, rfl⟩
abbrev main_cst_13 : Ref sig .tc := ⟨.hbm, 112, rfl⟩
abbrev main_v32 : Ref sig .tc := ⟨.hbm, 113, rfl⟩
abbrev main_cst_14 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_cst_15 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_cst_16 : Ref sig .tc := ⟨.hbm, 122, rfl⟩
abbrev main_v39 : Ref sig .tc := ⟨.hbm, 123, rfl⟩
abbrev main_v40 : Ref sig .tc := ⟨.hbm, 124, rfl⟩
abbrev main_cst_17 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_cst_18 : Ref sig .tc := ⟨.hbm, 130, rfl⟩
abbrev main_v45 : Ref sig .tc := ⟨.hbm, 131, rfl⟩
abbrev main_v46 : Ref sig .tc := ⟨.hbm, 132, rfl⟩
abbrev main_cst_19 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_cst_20 : Ref sig .tc := ⟨.hbm, 151, rfl⟩
abbrev main_v64 : Ref sig .tc := ⟨.hbm, 152, rfl⟩
abbrev main_v65 : Ref sig .tc := ⟨.hbm, 153, rfl⟩
abbrev main_cst_21 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_cst_22 : Ref sig .tc := ⟨.hbm, 158, rfl⟩
abbrev main_v69 : Ref sig .tc := ⟨.hbm, 159, rfl⟩
abbrev main_cst_23 : Ref sig .tc := ⟨.hbm, 160, rfl⟩
abbrev main_v70 : Ref sig .tc := ⟨.hbm, 161, rfl⟩

abbrev nD : Nat := 1
abbrev τ : Topo := Topo.v7x

variable {F : FTy → Type} [FloatOps F]

class Facts₀ : Prop where
  reducesTo_S512x1000_S512_d1 : S512x1000.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x1000_0_1 : S512x1.BroadcastsInDim S512x1000 (![0, 1] : Fin 2 → Fin S512x1000.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  bcast_S_S512x1000 : S_.BroadcastsInDim S512x1000 (![] : Fin 0 → Fin S512x1000.rank)
  bcast_S1x1000_S512x1000_0_1 : S1x1000.BroadcastsInDim S512x1000 (![0, 1] : Fin 2 → Fin S512x1000.rank)
  reducesTo_S512_S_d0 : S512.ReducesTo [0] S_
  reducesTo_S512x1000_S_d0_1 : S512x1000.ReducesTo [0, 1] S_
  reducesTo_S64x500000_S64_d1 : S64x500000.ReducesTo [1] S64
  bcast_S_S1 : S_.BroadcastsInDim S1 (![] : Fin 0 → Fin S1.rank)
  concatenates_S1_S1_S1_S1_S1_S5_d0 : Shape.Concatenates [S1, S1, S1, S1, S1] S5 0
  bcast_S5_S64x5_1 : S5.BroadcastsInDim S64x5 (![1] : Fin 1 → Fin S64x5.rank)
  bcast_S64_S64x1_0 : S64.BroadcastsInDim S64x1 (![0] : Fin 1 → Fin S64x1.rank)
  concatenates_S64x1_S64x1_S64x1_S64x1_S64x4_d1 : Shape.Concatenates [S64x1, S64x1, S64x1, S64x1] S64x4 1
  concatenates_S64x5_S64x4_S64x9_d1 : Shape.Concatenates [S64x5, S64x4] S64x9 1
  bcast_S_S64x9 : S_.BroadcastsInDim S64x9 (![] : Fin 0 → Fin S64x9.rank)
  reducesTo_S64x9_S_d0_1 : S64x9.ReducesTo [0, 1] S_
  gather_S512x1000_S512x1x1_S512x1_n_1_0_0_1_2_11_wf : GatherDims.WF S512x1000 S512x1x1 S512x1 [] [1] [0] [1] [0] 2 ![1, 1]

variable [Facts₀]

def gather_S512x1000_S512x1x1_S512x1_n_1_0_0_1_2_11 : GatherDims S512x1000 S512x1x1 S512x1 where
  offsetDims := []
  collapsedSliceDims := [1]
  operandBatchingDims := [0]
  startIndicesBatchingDims := [0]
  startIndexMap := [1]
  indexVectorDim := 2
  sliceSizes := ![1, 1]
  wf := gather_S512x1000_S512x1x1_S512x1_n_1_0_0_1_2_11_wf

class Facts : Prop extends Facts₀ where

variable [Facts]
-- ==== Proof.WordEntry.lean ====
import proofs.«157880_j12292196401295_2_alg».proof.Proof.Gen.Kernel.Launch
import proofs.«157880_j12292196401295_2_alg».proof.Proof.Gen.Kernel.Skeleton
import proofs.«157880_j12292196401295_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The host operations before the region compute the five batch statistics of the logits; the region
reduces the two parameter matrices to four running sums per row; the host operations after it take
square roots, lay the nine columns side by side, weigh them and average. -/

/-- The stretches of host operations before the region, in program order. -/
abbrev preOps : List (List (HloOp τ sig (Elt F))) := [hostOps0, hostOps0_1, hostOps0_2, hostOps0_3, hostOps0_4, hostOps0_5, hostOps0_6, hostOps0_7]

/-- A core's buffers when the region is entered: the launch contents after the earlier host operations. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host operations, the region, the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub⟩
    ⟨hostOps0_fresh, hostOps0_1_fresh, hostOps0_2_fresh, hostOps0_3_fresh, hostOps0_4_fresh, hostOps0_5_fresh, hostOps0_6_fresh, hostOps0_7_fresh⟩ main_chain

/-- The later operations touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is neither parameter matrix nor the region's result. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`: the region finds it at its launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg1`: the region finds it at its launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg2`: the region finds it at its launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg3`: the region finds it at its launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg4`: the region finds it at its launch contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does an operation after it, and `main_arg0` is no array of the pipeline: it ends at its launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does an operation after it, and `main_arg1` is no array of the pipeline: it ends at its launch contents. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does an operation after it, and `main_arg4` is no array of the pipeline: it ends at its launch contents. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t` — its part inside the array — read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches, decided over the grid

The grid is 2 row halves by 20 column tiles, the tile index the fast coordinate: point `t` is tile
`t % 20` of half `t / 20`. The running sums are reset at tile 0 and copied out at tile 19. -/

/-- "This is the first column tile." -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 20 = 0 :=
  (by decide +kernel : ∀ t : Fin grid0.N, condFirst (grid0.coords t) ↔ t.val % 20 = 0)
/-- "This is the last column tile." -/
abbrev condLast (i : grid0.Coords) : Prop := k0_cond2 i = 1#1
theorem hcondLast : ∀ t : Fin cfg0.N, condLast (grid0.coords t) ↔ t.val % 20 = 19 :=
  (by decide +kernel : ∀ t : Fin grid0.N, condLast (grid0.coords t) ↔ t.val % 20 = 19)

/-- The two inputs are live at every point. -/
theorem liveAt_0 : ∀ t : Fin cfg0.N, cfg0.idle 0 (grid0.coords t) = false := by decide +kernel
theorem liveAt_1 : ∀ t : Fin cfg0.N, cfg0.idle 1 (grid0.coords t) = false := by decide +kernel
/-- The result's window is idle, and not written back, except at a last column tile. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
theorem liveAt_2 : ∀ t : Fin cfg0.N, condLast (grid0.coords t) → cfg0.idle 2 (grid0.coords t) = false := by decide +kernel

/-! ## The staging memrefs and the scratch -/

abbrev ms_0 (t : Fin cfg0.N) : Memref sig .tc .vmem S32x25088 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S32x25088 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x4 .f32 := win0_2.stage (cfg0.slots t 2)
abbrev hs_2 (t : Fin cfg0.N) : (ms_2 t).IsWhole := hstage0_2 ((cfg0.slots t 2).cast nbuf0_2)
/-- The running sums' buffer: 32 rows by 4 sums. -/
abbrev scM : Memref sig .tc .vmem S32x4 .f32 := Memref.whole cc0_scratch0

/-- What the region's invariant is when nothing is said of the running sums: their buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelHand

end
-- ==== Proof.WordMask.lean ====
import proofs.«157880_j12292196401295_2_alg».proof.Proof.WordEntry
import Idealize.ShloMosaic.Lib.ValueIdx
import Idealize.ShloMosaic.Lib.Pipeline.Value

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## One column tile's contribution, and why lanes past the matrix's end do not matter

Column tile `a` of a 32-row block covers the columns `a * 25088 + l`, `l < 25088`. The body keeps lane `l`
only if that column is below 500000 and reads zero there otherwise, so whatever a staging buffer
holds past the matrix's last column never reaches the four sums. -/

/-- In 32-bit words, for a tile below 20 and a lane below 25088, "column < 500000" (signed) is the plain comparison. -/
theorem slt_lane (a l : ℕ) (ha : a < 20) (hl : l < 25088) :
    (BitVec.ofNat 32 a * 25088#32 + BitVec.ofNat 32 l).slt 500000#32 = decide (a * 25088 + l < 500000) := by
  have h1 : (BitVec.ofNat 32 a * 25088#32 + BitVec.ofNat 32 l).toNat = a * 25088 + l := by
    simp only [BitVec.toNat_add, BitVec.toNat_mul, BitVec.toNat_ofNat]
    omega
  have h2 : (BitVec.ofNat 32 a * 25088#32 + BitVec.ofNat 32 l).toInt = ((a * 25088 + l : ℕ) : ℤ) := by
    rw [BitVec.toInt_eq_toNat_cond, h1]
    have : 2 * (a * 25088 + l) < 2 ^ 32 := by omega
    rw [if_pos this]
  rw [BitVec.slt, h2]
  have h3 : (500000#32 : BitVec 32).toInt = 500000 := by decide
  rw [h3]
  by_cases h : a * 25088 + l < 500000
  · simp [h]; omega
  · simp [h]; omega

/-- Which lanes of the tile at grid position `i` lie inside the matrix, as the body computes it. -/
def laneMask (i : grid0.Coords) : IVec S32x25088 1 :=
  cmpi .slt (addi (broadcast S32x25088 (Scalar.muli (BitVec.ofNat 32 (i 1).val) 25088#32)) (iota .tc S32x25088 32 [1] iota_S32x25088_d1_w32))
    (broadcast S32x25088 500000#32)

/-- Lane `l` of row `r` is kept exactly when its column is below 500000. -/
theorem laneMask_apply (i : grid0.Coords) (r : Fin 32) (l : Fin 25088) :
    laneMask i (ix2 r l) = BitVec.ofBool (decide ((i 1).val * 25088 + l.val < 500000)) := by
  unfold laneMask cmpi addi
  rw [broadcast_apply, broadcast_apply, iota_single_apply]
  show BitVec.ofBool ((BitVec.ofNat 32 (i 1).val * 25088#32 + BitVec.ofNat 32 l.val).slt 500000#32) = _
  rw [slt_lane _ _ (i 1).isLt l.isLt]

/-- A tile with the lanes outside the matrix read as zero. -/
def masked (i : grid0.Coords) (x : Vec F S32x25088 .f32) : Vec F S32x25088 .f32 :=
  select (laneMask i) x (broadcast S32x25088 (Scalar.ofBits .f32 0x00000000#32 : F .f32))

/-- The four lane sums of a tile pair, side by side: Σ|p|, Σ p², Σ|p − q|, Σ (p − q)², one row of four per matrix row. -/
def tileSums (p q : Vec F S32x25088 .f32) : FVec F S32x4 .f32 :=
  concatenate S32x4 1
    [⟨S32x1, shapeCast S32x1 (multiReduction .add [1] S32 (absf p) 0x00000000#32 reduces_S32x25088_S32 (.inl rfl) rfl) shapeCasts_S32_S32x1⟩,
     ⟨S32x1, shapeCast S32x1 (multiReduction .add [1] S32 (mulf p p) 0x00000000#32 reduces_S32x25088_S32 (.inl rfl) rfl) shapeCasts_S32_S32x1⟩,
     ⟨S32x1, shapeCast S32x1 (multiReduction .add [1] S32 (absf (subf p q)) 0x00000000#32 reduces_S32x25088_S32 (.inl rfl) rfl) shapeCasts_S32_S32x1⟩,
     ⟨S32x1, shapeCast S32x1 (multiReduction .add [1] S32 (mulf (subf p q) (subf p q)) 0x00000000#32 reduces_S32x25088_S32 (.inl rfl) rfl) shapeCasts_S32_S32x1⟩]
    concatenates_S32x1_S32x1_S32x1_S32x1_S32x4_d1

/-- What the body stores into the running sums: the old sums plus this tile's masked contribution. -/
theorem pay2_eq (i : grid0.Coords) (v3 v4 : Vec F S32x25088 .f32) (v28 : Vec F S32x4 .f32) :
    k0_pay2 i v3 v4 v28 = shapeCast S32x4 (addf v28 (tileSums (masked i v3) (masked i v4))) shapeCasts_S32x4_S32x4 := rfl

/-- At every grid point, a lane the mask keeps is a lane the fetch fills (both say: the column is inside the matrix). -/
theorem xsize_cols : ∀ t : Fin cfg0.N, win0_0.xsize (grid0.coords t) 0 = 32 ∧ win0_1.xsize (grid0.coords t) 0 = 32
    ∧ win0_0.xsize (grid0.coords t) 1 = min 25088 (500000 - (grid0.coords t 1).val * 25088)
    ∧ win0_1.xsize (grid0.coords t) 1 = min 25088 (500000 - (grid0.coords t 1).val * 25088) :=
  (by decide +kernel : ∀ t : Fin grid0.N, win0_0.xsize (grid0.coords t) 0 = 32 ∧ win0_1.xsize (grid0.coords t) 0 = 32
    ∧ win0_0.xsize (grid0.coords t) 1 = min 25088 (500000 - (grid0.coords t 1).val * 25088)
    ∧ win0_1.xsize (grid0.coords t) 1 = min 25088 (500000 - (grid0.coords t 1).val * 25088))

theorem moved_of_mask_0 (t : Fin cfg0.N) (j : S32x25088.Idx) (h : laneMask (grid0.coords t) j = 1) :
    win0_0.moved (grid0.coords t) j = true := by
  obtain ⟨r, l, rfl⟩ : ∃ (r : Fin 32) (l : Fin 25088), j = ix2 r l := ⟨j 0, j 1, eq_ix2 j⟩
  rw [laneMask_apply] at h
  have hlt : (grid0.coords t 1).val * 25088 + l.val < 500000 := by
    by_contra hn; rw [decide_eq_false hn] at h; exact absurd h (by decide)
  rw [Window.moved_iff]
  intro a
  obtain ⟨h0, -, h1, -⟩ := xsize_cols t
  match a with
  | ⟨0, _⟩ => rw [show win0_0.xsize (grid0.coords t) ⟨0, by decide⟩ = 32 from h0]; exact r.isLt
  | ⟨1, _⟩ =>
    rw [show win0_0.xsize (grid0.coords t) ⟨1, by decide⟩ = _ from h1]
    have := l.isLt
    show l.val < _
    omega

theorem moved_of_mask_1 (t : Fin cfg0.N) (j : S32x25088.Idx) (h : laneMask (grid0.coords t) j = 1) :
    win0_1.moved (grid0.coords t) j = true := by
  obtain ⟨r, l, rfl⟩ : ∃ (r : Fin 32) (l : Fin 25088), j = ix2 r l := ⟨j 0, j 1, eq_ix2 j⟩
  rw [laneMask_apply] at h
  have hlt : (grid0.coords t 1).val * 25088 + l.val < 500000 := by
    by_contra hn; rw [decide_eq_false hn] at h; exact absurd h (by decide)
  rw [Window.moved_iff]
  intro a
  obtain ⟨-, h0, -, h1⟩ := xsize_cols t
  match a with
  | ⟨0, _⟩ => rw [show win0_1.xsize (grid0.coords t) ⟨0, by decide⟩ = 32 from h0]; exact r.isLt
  | ⟨1, _⟩ =>
    rw [show win0_1.xsize (grid0.coords t) ⟨1, by decide⟩ = _ from h1]
    have := l.isLt
    show l.val < _
    omega

/-- So the masked tile does not depend on what the staging buffer held past the fetched part. -/
theorem masked_fill_0 (t : Fin cfg0.N) (d d' : S32x25088.Idx → Elt F .f32) (g : (win0_0.xblock (grid0.coords t)).Idx → Elt F .f32) :
    masked (grid0.coords t) (win0_0.fill (grid0.coords t) d g) = masked (grid0.coords t) (win0_0.fill (grid0.coords t) d' g) := by
  funext j
  unfold masked
  rw [select_apply, select_apply]
  unfold Scalar.select
  by_cases h : laneMask (grid0.coords t) j = 1
  · rw [if_pos h, if_pos h]
    have hm := moved_of_mask_0 t j h
    unfold Window.fill; rw [dif_pos hm, dif_pos hm]
  · rw [if_neg h, if_neg h]

theorem masked_fill_1 (t : Fin cfg0.N) (d d' : S32x25088.Idx → Elt F .f32) (g : (win0_1.xblock (grid0.coords t)).Idx → Elt F .f32) :
    masked (grid0.coords t) (win0_1.fill (grid0.coords t) d g) = masked (grid0.coords t) (win0_1.fill (grid0.coords t) d' g) := by
  funext j
  unfold masked
  rw [select_apply, select_apply]
  unfold Scalar.select
  by_cases h : laneMask (grid0.coords t) j = 1
  · rw [if_pos h, if_pos h]
    have hm := moved_of_mask_1 t j h
    unfold Window.fill; rw [dif_pos hm, dif_pos hm]
  · rw [if_neg h, if_neg h]

end Cert.KernelHand

end
-- ==== Proof.LibRectReads.lean ====
/-
  Loads and stores through unit-stride rectangles of a buffer, read at an index by coordinates.

  A load through the rectangle of sizes `size` at offsets `off` reads, at position y, the buffer's contents at off + y.
  A list of stores is read newest first: an index under the newest store's rectangle reads that store's payload at the
  index minus the offsets, any other index reads what the earlier stores left. Here these two facts are written out
  for the rectangles that keep every coordinate but the last, where they take the lanes [o, o + W): the condition is
  on the last coordinate alone. A load or store through the whole-shape rectangle at zero offsets reads the contents,
  respectively leaves its payload.
-/
import Idealize.ShloMosaic.Lib.WritesUnit
import Idealize.ShloMosaic.Lib.ValueIdx
import Idealize.ShloMosaic.Lib.Pipeline.Value

noncomputable section

namespace Cert.RectReads

open Idealize.ShloMosaic Idealize.ShloMosaic.ValueIdx

variable {sig : RefSig} {κ : Kind} {sp : Space} {e : EltTy} {Val : EltTy → Type}

/-- Zero offsets at rank 2 and rank 3, however spelt. -/
theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-! ## Whole-buffer loads and stores -/

/-- A load of the whole buffer reads its contents. -/
theorem readAt_whole {S : Shape} (a : Memref sig κ sp S e) (g : a.view.ty.Contents Val) {off : Fin S.rank → ℕ}
    (hz : off = fun _ => 0) (inb : ∀ ax, off ax + S.size ax ≤ S.size ax) :
    a.view.readAt Val (Rect.unit off S.size inb).toLoadRect g = a.view.read Val g := by
  rw [View.readAt_eq_ld, View.ld_unit_zero hz]

/-- A load of the whole of a whole memref held at contents `d` reads `d`. -/
theorem readAt_whole_unread {S : Shape} (a : Memref sig κ sp S e) (ha : a.IsWhole) (d : S.Idx → Val e)
    {off : Fin S.rank → ℕ} (hz : off = fun _ => 0) (inb : ∀ ax, off ax + S.size ax ≤ S.size ax) :
    a.view.readAt Val (Rect.unit off S.size inb).toLoadRect (ha.unread d) = d := by
  rw [readAt_whole a _ hz inb, ha.read_unread]

/-- A store of the whole buffer, newest, leaves its payload. -/
theorem read_writes_whole [∀ e, Nonempty (Val e)] {S : Shape} (a : Memref sig κ sp S e) (f : a.view.ty.Contents Val)
    {off : Fin S.rank → ℕ} (hz : off = fun _ => 0) (inb : ∀ ax, off ax + S.size ax ≤ S.size ax)
    (v : S.Idx → Val e) (L : List (View.Piece Val S e)) :
    a.view.read Val (a.view.writes Val f ((⟨Rect.unit off S.size inb, v⟩ : View.Piece Val S e) :: L)) = v :=
  (View.read_writes_eq_canon a.view f _ fun y => ⟨_, List.mem_cons_self, View.mem_set_unit_zero hz inb y⟩).trans
    (View.canon_cons_unit_zero hz inb v L)

/-- No store: the contents. -/
theorem read_writes_nil_unread {S : Shape} (a : Memref sig κ sp S e) (ha : a.IsWhole) (d : S.Idx → Val e) :
    a.view.read Val (a.view.writes Val (ha.unread d) []) = d := ha.read_unread d

/-! ## Rank 2: the columns [o, o + W) of every row -/

section Cols2

variable {n0 n1 W o : ℕ} (a : Memref sig κ sp (⟨2, ![n0, n1]⟩ : Shape) e)

/-- A load of columns [o, o + W) reads, at (r, q), the contents at (r, o + q). -/
theorem readAt_cols2 (g : a.view.ty.Contents Val) {off : Fin 2 → ℕ}
    (inb : ∀ ax, off ax + (![n0, W] : Fin 2 → ℕ) ax ≤ (⟨2, ![n0, n1]⟩ : Shape).size ax) (heq : off = ![0, o]) (ho : o + W ≤ n1)
    (r : Fin n0) (q : Fin W) :
    a.view.readAt Val (Rect.unit (s := ⟨2, ![n0, n1]⟩) off ![n0, W] inb).toLoadRect g (ix2 r q)
      = a.view.read Val g (ix2 r ⟨o + q.val, by have := q.isLt; omega⟩) := by
  subst heq
  show a.view.read Val g ((Rect.unit (s := ⟨2, ![n0, n1]⟩) ![0, o] ![n0, W] inb).idx (ix2 r q)) = _
  refine congrArg (a.view.read Val g) (funext fun ax => Fin.ext ?_)
  match ax with
  | ⟨0, _⟩ => show 0 + 1 * r.val = r.val; omega
  | ⟨1, _⟩ => show o + 1 * q.val = o + q.val; omega

/-- Newest first: under a store of columns [o, o + W) its payload at the column minus o, elsewhere the earlier stores. -/
theorem read_writes_cols2 (f : a.view.ty.Contents Val) {off : Fin 2 → ℕ}
    (inb : ∀ ax, off ax + (![n0, W] : Fin 2 → ℕ) ax ≤ (⟨2, ![n0, n1]⟩ : Shape).size ax) (heq : off = ![0, o])
    (v : (⟨2, ![n0, W]⟩ : Shape).Idx → Val e) (L : List (View.Piece Val (⟨2, ![n0, n1]⟩ : Shape) e))
    (r : Fin n0) (q : Fin n1) :
    a.view.read Val (a.view.writes Val f ((⟨Rect.unit (s := ⟨2, ![n0, n1]⟩) off ![n0, W] inb, v⟩ : View.Piece Val (⟨2, ![n0, n1]⟩ : Shape) e) :: L)) (ix2 r q)
      = if h : o ≤ q.val ∧ q.val < o + W then v (ix2 r ⟨q.val - o, by omega⟩)
        else a.view.read Val (a.view.writes Val f L) (ix2 r q) := by
  by_cases h : o ≤ q.val ∧ q.val < o + W
  · rw [dif_pos h]
    refine View.read_writes_cons_unit_of_mem a.view f inb v L (ix2 r q) (ix2 r ⟨q.val - o, by omega⟩) heq fun ax => ?_
    match ax with
    | ⟨0, _⟩ => show r.val = 0 + r.val; omega
    | ⟨1, _⟩ => show q.val = o + (q.val - o); omega
  · rw [dif_neg h]
    refine View.read_writes_cons_unit_of_not_mem a.view f inb v L (ix2 r q) heq (1 : Fin 2) ?_
    show q.val < o ∨ o + W ≤ q.val
    omega

end Cols2

/-! ## Rank 3: the lanes [o, o + W) of every row of every plane -/

section Lanes3

variable {n0 n1 n2 W o : ℕ} (a : Memref sig κ sp (⟨3, ![n0, n1, n2]⟩ : Shape) e)

/-- A load of lanes [o, o + W) reads, at (p, r, q), the contents at (p, r, o + q). -/
theorem readAt_lanes3 (g : a.view.ty.Contents Val) {off : Fin 3 → ℕ}
    (inb : ∀ ax, off ax + (![n0, n1, W] : Fin 3 → ℕ) ax ≤ (⟨3, ![n0, n1, n2]⟩ : Shape).size ax) (heq : off = ![0, 0, o])
    (ho : o + W ≤ n2) (p : Fin n0) (r : Fin n1) (q : Fin W) :
    a.view.readAt Val (Rect.unit (s := ⟨3, ![n0, n1, n2]⟩) off ![n0, n1, W] inb).toLoadRect g (ix3 p r q)
      = a.view.read Val g (ix3 p r ⟨o + q.val, by have := q.isLt; omega⟩) := by
  subst heq
  show a.view.read Val g ((Rect.unit (s := ⟨3, ![n0, n1, n2]⟩) ![0, 0, o] ![n0, n1, W] inb).idx (ix3 p r q)) = _
  refine congrArg (a.view.read Val g) (funext fun ax => Fin.ext ?_)
  match ax with
  | ⟨0, _⟩ => show 0 + 1 * p.val = p.val; omega
  | ⟨1, _⟩ => show 0 + 1 * r.val = r.val; omega
  | ⟨2, _⟩ => show o + 1 * q.val = o + q.val; omega

/-- Newest first: under a store of lanes [o, o + W) its payload at the lane minus o, elsewhere the earlier stores. -/
theorem read_writes_lanes3 (f : a.view.ty.Contents Val) {off : Fin 3 → ℕ}
    (inb : ∀ ax, off ax + (![n0, n1, W] : Fin 3 → ℕ) ax ≤ (⟨3, ![n0, n1, n2]⟩ : Shape).size ax) (heq : off = ![0, 0, o])
    (v : (⟨3, ![n0, n1, W]⟩ : Shape).Idx → Val e) (L : List (View.Piece Val (⟨3, ![n0, n1, n2]⟩ : Shape) e))
    (p : Fin n0) (r : Fin n1) (q : Fin n2) :
    a.view.read Val (a.view.writes Val f ((⟨Rect.unit (s := ⟨3, ![n0, n1, n2]⟩) off ![n0, n1, W] inb, v⟩ : View.Piece Val (⟨3, ![n0, n1, n2]⟩ : Shape) e) :: L)) (ix3 p r q)
      = if h : o ≤ q.val ∧ q.val < o + W then v (ix3 p r ⟨q.val - o, by omega⟩)
        else a.view.read Val (a.view.writes Val f L) (ix3 p r q) := by
  by_cases h : o ≤ q.val ∧ q.val < o + W
  · rw [dif_pos h]
    refine View.read_writes_cons_unit_of_mem a.view f inb v L (ix3 p r q) (ix3 p r ⟨q.val - o, by omega⟩) heq fun ax => ?_
    match ax with
    | ⟨0, _⟩ => show p.val = 0 + p.val; omega
    | ⟨1, _⟩ => show r.val = 0 + r.val; omega
    | ⟨2, _⟩ => show q.val = o + (q.val - o); omega
  · rw [dif_neg h]
    refine View.read_writes_cons_unit_of_not_mem a.view f inb v L (ix3 p r q) heq (2 : Fin 3) ?_
    show q.val < o ∨ o + W ≤ q.val
    omega

end Lanes3

end Cert.RectReads

end
-- ==== Proof.WordBody.lean ====
import proofs.«157880_j12292196401295_2_alg».proof.Proof.WordEntry
import proofs.«157880_j12292196401295_2_alg».proof.Proof.LibRectReads

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any four whole buffers, tile by tile

`a2`, `a3` hold the two tiles, `a4` is the result's block, `a5` the running sums. Every access is of a
whole buffer: a load reads the contents and a store leaves its payload. -/

/-- A FIRST column tile: the running sums are set to zero, then this tile's four lane sums are added; the result's block is untouched. -/
theorem run_first (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : condFirst i) (hc1 : ¬condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare x2 ∗ owns (c : Thread nD τ) a5 fullShare (k0_pay2 i x0 x1 (k0_pay1 (F := F)))) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H5
  ipureintro
  rw [Cert.RectReads.read_writes_whole a5 _ Cert.RectReads.hz2 inb_S32x4_S32x4_0_0,
    Cert.RectReads.readAt_whole_unread a2 ha2 x0 Cert.RectReads.hz2 inb_S32x25088_S32x25088_0_0,
    Cert.RectReads.readAt_whole_unread a3 ha3 x1 Cert.RectReads.hz2 inb_S32x25088_S32x25088_0_0]
  sl_unfold_run_names
  rw [View.readCov_cons_toLoadRect]

/-- A MIDDLE column tile: this tile's four lane sums are added to the running sums; the result's block is untouched. -/
theorem run_mid (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : ¬condFirst i) (hc1 : ¬condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare x2 ∗ owns (c : Thread nD τ) a5 fullShare (k0_pay2 i x0 x1 s)) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H5
  ipureintro
  rw [Cert.RectReads.read_writes_whole a5 _ Cert.RectReads.hz2 inb_S32x4_S32x4_0_0,
    Cert.RectReads.readAt_whole_unread a2 ha2 x0 Cert.RectReads.hz2 inb_S32x25088_S32x25088_0_0,
    Cert.RectReads.readAt_whole_unread a3 ha3 x1 Cert.RectReads.hz2 inb_S32x25088_S32x25088_0_0,
    Cert.RectReads.readAt_whole_unread a5 ha5 s Cert.RectReads.hz2 inb_S32x4_S32x4_0_0]

/-- A LAST column tile: this tile's four lane sums are added, and the running sums are copied into the result's block. -/
theorem run_last (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : ¬condFirst i) (hc1 : condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare (k0_pay2 i x0 x1 s) ∗ owns (c : Thread nD τ) a5 fullShare (k0_pay2 i x0 x1 s)) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  have e5 : View.read (Elt F) a5.view (a5.view.writes (Elt F) (ha5.unread s)
      [⟨Rect.unit ![0, 0] S32x4.size inb_S32x4_S32x4_0_0,
        k0_pay2 i
          (View.readAt (Elt F) a2.view (Rect.unit ![0, 0] S32x25088.size inb_S32x25088_S32x25088_0_0).toLoadRect (ha2.unread x0))
          (View.readAt (Elt F) a3.view (Rect.unit ![0, 0] S32x25088.size inb_S32x25088_S32x25088_0_0).toLoadRect (ha3.unread x1))
          (View.readAt (Elt F) a5.view (Rect.unit ![0, 0] S32x4.size inb_S32x4_S32x4_0_0).toLoadRect (ha5.unread s))⟩]) = k0_pay2 i x0 x1 s := by
    rw [Cert.RectReads.read_writes_whole a5 _ Cert.RectReads.hz2 inb_S32x4_S32x4_0_0,
      Cert.RectReads.readAt_whole_unread a2 ha2 x0 Cert.RectReads.hz2 inb_S32x25088_S32x25088_0_0,
      Cert.RectReads.readAt_whole_unread a3 ha3 x1 Cert.RectReads.hz2 inb_S32x25088_S32x25088_0_0,
      Cert.RectReads.readAt_whole_unread a5 ha5 s Cert.RectReads.hz2 inb_S32x4_S32x4_0_0]
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    rw [Cert.RectReads.read_writes_whole a4 _ Cert.RectReads.hz2 inb_S32x4_S32x4_0_0]
    sl_unfold_run_names
    rw [View.readCov_cons_toLoadRect,
      Cert.RectReads.readAt_whole_unread a2 ha2 x0 Cert.RectReads.hz2 inb_S32x25088_S32x25088_0_0,
      Cert.RectReads.readAt_whole_unread a3 ha3 x1 Cert.RectReads.hz2 inb_S32x25088_S32x25088_0_0,
      Cert.RectReads.readAt_whole_unread a5 ha5 s Cert.RectReads.hz2 inb_S32x4_S32x4_0_0]
  iexists _; isplitr; swap; · iexact H5
  ipureintro
  exact e5

end Cert.KernelHand

end
-- ==== Proof.WordAccumulate.lean ====
import proofs.«157880_j12292196401295_2_alg».proof.Proof.WordMask
import proofs.«157880_j12292196401295_2_alg».proof.Proof.WordBody

set_option maxRecDepth 16384

noncomputable section

namespace Cert.KernelHand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums, point by point

Within a row half the 20 column tiles are visited in order; the running sums start from zero at
tile 0 and after tile `a` hold the four masked lane sums of tiles `0 … a`. They are copied to the
result's block at tile 19. -/

/-- The word a staging buffer is taken to hold past the fetched part: nothing reads it (`masked_fill_0`). -/
abbrev zfill : S32x25088.Idx → Elt F .f32 := fun _ => (Scalar.ofBits .f32 0x00000000#32 : F .f32)

/-- The two tiles the body finds at point `t`, filled out with zeros past the matrix's end. -/
def tin0 (c : Dev nD) (t : Fin cfg0.N) : Vec F S32x25088 .f32 := win0_0.fill (grid0.coords t) zfill (iblk m c 0 t)
def tin1 (c : Dev nD) (t : Fin cfg0.N) : Vec F S32x25088 .f32 := win0_1.fill (grid0.coords t) zfill (iblk m c 1 t)

/-- THE RUNNING SUMS after the body at position `n`: reset at a first column tile, else the sums the point before left, plus this tile's. -/
def acc (c : Dev nD) : (n : ℕ) → n < cfg0.N → Vec F S32x4 .f32
  | 0, hn => k0_pay2 (grid0.coords ⟨0, hn⟩) (tin0 m c ⟨0, hn⟩) (tin1 m c ⟨0, hn⟩) k0_pay1
  | n + 1, hn =>
    if (n + 1) % 20 = 0 then k0_pay2 (grid0.coords ⟨n + 1, hn⟩) (tin0 m c ⟨n + 1, hn⟩) (tin1 m c ⟨n + 1, hn⟩) k0_pay1
    else k0_pay2 (grid0.coords ⟨n + 1, hn⟩) (tin0 m c ⟨n + 1, hn⟩) (tin1 m c ⟨n + 1, hn⟩) (acc c n (Nat.lt_of_succ_lt hn))

theorem acc_first (c : Dev nD) (t : Fin cfg0.N) (h : t.val % 20 = 0) :
    acc m c t.val t.isLt = k0_pay2 (grid0.coords t) (tin0 m c t) (tin1 m c t) k0_pay1 := by
  obtain ⟨n, hn⟩ := t
  cases n with
  | zero => rfl
  | succ n => exact if_pos h

theorem acc_next (c : Dev nD) (t : Fin cfg0.N) (h : ¬t.val % 20 = 0) :
    acc m c t.val t.isLt = k0_pay2 (grid0.coords t) (tin0 m c t) (tin1 m c t)
      (acc m c (t.val - 1) (Nat.lt_of_le_of_lt (Nat.sub_le _ _) t.isLt)) := by
  obtain ⟨n, hn⟩ := t
  cases n with
  | zero => exact absurd (Nat.zero_mod _) h
  | succ n => exact if_neg h

/-- What the body computes from the buffers as it finds them is what it would from the zero-filled tiles. -/
theorem pay2_fill (t : Fin cfg0.N) (d0 d1 : S32x25088.Idx → Elt F .f32)
    (g0 : (win0_0.xblock (grid0.coords t)).Idx → Elt F .f32) (g1 : (win0_1.xblock (grid0.coords t)).Idx → Elt F .f32) (S : Vec F S32x4 .f32) :
    k0_pay2 (grid0.coords t) (win0_0.fill (grid0.coords t) d0 g0) (win0_1.fill (grid0.coords t) d1 g1) S
      = k0_pay2 (grid0.coords t) (win0_0.fill (grid0.coords t) zfill g0) (win0_1.fill (grid0.coords t) zfill g1) S := by
  rw [pay2_eq, pay2_eq, masked_fill_0 t d0 zfill g0, masked_fill_1 t d1 zfill g1]

/-- The region's invariant before position `n`: before the first point nothing is said of the running sums; afterwards their buffer holds `acc` of the point before. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The pipeline's proof data: the arrays as the region finds them; after the body the inputs' buffers at their tiles and the result's at the running sums. -/
def dats (_ : Fin 1) (c : Dev nD) : Dat τ (Elt F) Unit ℕ (UR sig nD τ) ℕ cfg0 c where
  A w := V m c (Pipeline.arrRef spec0 w)
  after w t := match w with
    | ⟨0, _⟩ => tin0 m c t
    | ⟨1, _⟩ => tin1 m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = tin0 m c t := by dsimp only [dats]
theorem after_1 (c : Dev nD) (t : Fin cfg0.N) : (dats m 0 c).after 1 t = tin1 m c t := by dsimp only [dats]
theorem after_2 (c : Dev nD) (t : Fin cfg0.N) : (dats m 0 c).after 2 t = acc m c t.val t.isLt := by dsimp only [dats]

/-- Each input's buffer, just fetched, holds its tile where the fetch filled it. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (ms_0 t) fullShare (win0_0.fill (grid0.coords t) d (iblk m c 0 t))) := by
  unfold Dat.leaves; rw [liveAt_0 t, after_0]
  show iprop(∃ d, owns (c : Thread nD τ) (ms_0 t) fullShare (win0_0.fill (grid0.coords t) d (win0_0.cut (grid0.coords t) (tin0 m c t)))) = _
  unfold tin0; rw [win0_0.cut_fill]
theorem leaves_1 (c : Dev nD) (t : Fin cfg0.N) : (dats m 0 c).leaves 1 t
    = iprop(∃ d, owns (c : Thread nD τ) (ms_1 t) fullShare (win0_1.fill (grid0.coords t) d (iblk m c 1 t))) := by
  unfold Dat.leaves; rw [liveAt_1 t, after_1]
  show iprop(∃ d, owns (c : Thread nD τ) (ms_1 t) fullShare (win0_1.fill (grid0.coords t) d (win0_1.cut (grid0.coords t) (tin1 m c t)))) = _
  unfold tin1; rw [win0_1.cut_fill]
theorem leaves_2_last (c : Dev nD) (t : Fin cfg0.N) (h : condLast (grid0.coords t)) : (dats m 0 c).leaves 2 t
    = owns (c : Thread nD τ) (ms_2 t) fullShare (acc m c t.val t.isLt) := by
  unfold Dat.leaves; rw [liveAt_2 t h, after_2]; try rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1]
  have hN : t.val < 40 := lt_of_lt_of_eq t.isLt (show cfg0.N = 40 from N_0)
  by_cases h0 : t.val % 20 = 0
  · -- a first column tile: the sums are reset, then this tile is added
    have hl : ¬condLast (grid0.coords t) := fun h => by have := (hcondLast t).mp h; omega
    rw [Dat.leaves_idle (dats m 0 c) 2 t (idleAt_2 t hl) (noFlush_2 t hl), acc_first m c t h0, PhiS_castSucc m c t]
    by_cases hz : t.val = 0
    · rw [PhiS_zero m c _ _ hz, PhiA_eq]
      iintro ⟨⟨⟨%ds, HS⟩, Hg⟩, Ho, ⟨%d0, H0⟩, ⟨%d1, H1⟩, ⟨%d2, H2⟩⟩
      rw [before_0 m c t d0, before_1 m c t d1]
      rw [show k0_pay2 (grid0.coords t) (tin0 m c t) (tin1 m c t) (k0_pay1 (F := F))
          = k0_pay2 (grid0.coords t) (win0_0.fill (grid0.coords t) d0 (iblk m c 0 t)) (win0_1.fill (grid0.coords t) d1 (iblk m c 1 t)) (k0_pay1 (F := F))
          from (pay2_fill t d0 d1 (iblk m c 0 t) (iblk m c 1 t) _).symm]
      iapply (run_first (F := F) c (grid0.coords t) (ms_0 t) (hs_0 t) (ms_1 t) (hs_1 t) (ms_2 t) (hs_2 t) scM (Memref.isWhole_whole _)
        ((hcondFirst t).mpr h0) hl _ _ _ ds Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2
    · rw [PhiS_pos m c _ _ hz]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (k0_pay1 (F := F))
          = k0_pay2 (grid0.coords t) (win0_0.fill (grid0.coords t) d0 (iblk m c 0 t)) (win0_1.fill (grid0.coords t) d1 (iblk m c 1 t)) (k0_pay1 (F := F))
          from (pay2_fill t d0 d1 (iblk m c 0 t) (iblk m c 1 t) _).symm]
      iapply (run_first (F := F) c (grid0.coords t) (ms_0 t) (hs_0 t) (ms_1 t) (hs_1 t) (ms_2 t) (hs_2 t) scM (Memref.isWhole_whole _)
        ((hcondFirst t).mpr h0) hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2
  · have hf : ¬condFirst (grid0.coords t) := fun h => h0 ((hcondFirst t).mp h)
    have hz : t.val ≠ 0 := fun h => h0 (by rw [h])
    rw [acc_next m c t h0, PhiS_castSucc m c t, PhiS_pos m c _ _ hz]
    by_cases h1 : t.val % 20 = 19
    · -- a last column tile: this tile is added and the sums are copied to the result's block
      have hl : condLast (grid0.coords t) := (hcondLast t).mpr h1
      rw [leaves_2_last m c t hl, acc_next m c t h0]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (acc m c (t.val - 1) (Nat.lt_of_le_of_lt (Nat.sub_le _ _) t.isLt))
          = k0_pay2 (grid0.coords t) (win0_0.fill (grid0.coords t) d0 (iblk m c 0 t)) (win0_1.fill (grid0.coords t) d1 (iblk m c 1 t)) (acc m c (t.val - 1) (Nat.lt_of_le_of_lt (Nat.sub_le _ _) t.isLt))
          from (pay2_fill t d0 d1 (iblk m c 0 t) (iblk m c 1 t) _).symm]
      iapply (run_last (F := F) c (grid0.coords t) (ms_0 t) (hs_0 t) (ms_1 t) (hs_1 t) (ms_2 t) (hs_2 t) scM (Memref.isWhole_whole _)
        hf hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexact H2
    · -- a middle column tile: this tile is added
      have hl : ¬condLast (grid0.coords t) := fun h => h1 ((hcondLast t).mp h)
      rw [Dat.leaves_idle (dats m 0 c) 2 t (idleAt_2 t hl) (noFlush_2 t hl)]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (acc m c (t.val - 1) (Nat.lt_of_le_of_lt (Nat.sub_le _ _) t.isLt))
          = k0_pay2 (grid0.coords t) (win0_0.fill (grid0.coords t) d0 (iblk m c 0 t)) (win0_1.fill (grid0.coords t) d1 (iblk m c 1 t)) (acc m c (t.val - 1) (Nat.lt_of_le_of_lt (Nat.sub_le _ _) t.isLt))
          from (pay2_fill t d0 d1 (iblk m c 0 t) (iblk m c 1 t) _).symm]
      iapply (run_mid (F := F) c (grid0.coords t) (ms_0 t) (hs_0 t) (ms_1 t) (hs_1 t) (ms_2 t) (hs_2 t) scM (Memref.isWhole_whole _)
        hf hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2

/-- The library's body obligation, every window stated on the part its transfers move. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 40 := N_0; omega)

/-! ## The run -/

set_option backward.isDefEq.respectTransparency.types false in
/-- Every weakly fair execution of the program terminates; the pipeline's arrays end at what the write-backs leave, every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The five argument arrays end as they began: the two parameter matrices are inputs of the pipeline, the other three bypass it and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans (((dats m 0 c).arrAt_in 0 rfl _).trans ((A_eq m c 0).trans (V_main_arg2 m c))),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c)⟩) (run_main m ρ)

end Cert.KernelHand

end
-- ==== Proof.IdealEntry.lean ====
import proofs.«157880_j12292196401295_2_alg».proof.Proof.Gen.KernelIdeal.Launch
import proofs.«157880_j12292196401295_2_alg».proof.Proof.Gen.KernelIdeal.Skeleton
import proofs.«157880_j12292196401295_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The host operations before the region compute the five batch statistics of the logits; the region
reduces the two parameter matrices to four running sums per row; the host operations after it take
square roots, lay the nine columns side by side, weigh them and average. -/

/-- The stretches of host operations before the region, in program order. -/
abbrev preOps : List (List (HloOp τ sig (Elt F))) := [hostOps0, hostOps0_1, hostOps0_2, hostOps0_3, hostOps0_4, hostOps0_5, hostOps0_6, hostOps0_7]

/-- A core's buffers when the region is entered: the launch contents after the earlier host operations. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host operations, the region, the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub⟩
    ⟨hostOps0_fresh, hostOps0_1_fresh, hostOps0_2_fresh, hostOps0_3_fresh, hostOps0_4_fresh, hostOps0_5_fresh, hostOps0_6_fresh, hostOps0_7_fresh⟩ main_chain

/-- The later operations touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is neither parameter matrix nor the region's result. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`: the region finds it at its launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg1`: the region finds it at its launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg2`: the region finds it at its launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg3`: the region finds it at its launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation before the region writes `main_arg4`: the region finds it at its launch contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does an operation after it, and `main_arg0` is no array of the pipeline: it ends at its launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does an operation after it, and `main_arg1` is no array of the pipeline: it ends at its launch contents. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does an operation after it, and `main_arg4` is no array of the pipeline: it ends at its launch contents. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t` — its part inside the array — read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches, decided over the grid

The grid is 2 row halves by 20 column tiles, the tile index the fast coordinate: point `t` is tile
`t % 20` of half `t / 20`. The running sums are reset at tile 0 and copied out at tile 19. -/

/-- "This is the first column tile." -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 20 = 0 :=
  (by decide +kernel : ∀ t : Fin grid0.N, condFirst (grid0.coords t) ↔ t.val % 20 = 0)
/-- "This is the last column tile." -/
abbrev condLast (i : grid0.Coords) : Prop := k0_cond2 i = 1#1
theorem hcondLast : ∀ t : Fin cfg0.N, condLast (grid0.coords t) ↔ t.val % 20 = 19 :=
  (by decide +kernel : ∀ t : Fin grid0.N, condLast (grid0.coords t) ↔ t.val % 20 = 19)

/-- The two inputs are live at every point. -/
theorem liveAt_0 : ∀ t : Fin cfg0.N, cfg0.idle 0 (grid0.coords t) = false := by decide +kernel
theorem liveAt_1 : ∀ t : Fin cfg0.N, cfg0.idle 1 (grid0.coords t) = false := by decide +kernel
/-- The result's window is idle, and not written back, except at a last column tile. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
theorem liveAt_2 : ∀ t : Fin cfg0.N, condLast (grid0.coords t) → cfg0.idle 2 (grid0.coords t) = false := by decide +kernel

/-! ## The staging memrefs and the scratch -/

abbrev ms_0 (t : Fin cfg0.N) : Memref sig .tc .vmem S32x25088 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S32x25088 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x4 .f32 := win0_2.stage (cfg0.slots t 2)
abbrev hs_2 (t : Fin cfg0.N) : (ms_2 t).IsWhole := hstage0_2 ((cfg0.slots t 2).cast nbuf0_2)
/-- The running sums' buffer: 32 rows by 4 sums. -/
abbrev scM : Memref sig .tc .vmem S32x4 .f32 := Memref.whole cc0_scratch0

/-- What the region's invariant is when nothing is said of the running sums: their buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdealHand

end
-- ==== Proof.IdealMask.lean ====
import proofs.«157880_j12292196401295_2_alg».proof.Proof.IdealEntry
import Idealize.ShloMosaic.Lib.ValueIdx
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## One column tile's contribution, and why lanes past the matrix's end do not matter

Column tile `a` of a 32-row block covers the columns `a * 25088 + l`, `l < 25088`. The body keeps lane `l`
only if that column is below 500000 and reads zero there otherwise, so whatever a staging buffer
holds past the matrix's last column never reaches the four sums. -/

/-- In 32-bit words, for a tile below 20 and a lane below 25088, "column < 500000" (signed) is the plain comparison. -/
theorem slt_lane (a l : ℕ) (ha : a < 20) (hl : l < 25088) :
    (BitVec.ofNat 32 a * 25088#32 + BitVec.ofNat 32 l).slt 500000#32 = decide (a * 25088 + l < 500000) := by
  have h1 : (BitVec.ofNat 32 a * 25088#32 + BitVec.ofNat 32 l).toNat = a * 25088 + l := by
    simp only [BitVec.toNat_add, BitVec.toNat_mul, BitVec.toNat_ofNat]
    omega
  have h2 : (BitVec.ofNat 32 a * 25088#32 + BitVec.ofNat 32 l).toInt = ((a * 25088 + l : ℕ) : ℤ) := by
    rw [BitVec.toInt_eq_toNat_cond, h1]
    have : 2 * (a * 25088 + l) < 2 ^ 32 := by omega
    rw [if_pos this]
  rw [BitVec.slt, h2]
  have h3 : (500000#32 : BitVec 32).toInt = 500000 := by decide
  rw [h3]
  by_cases h : a * 25088 + l < 500000
  · simp [h]; omega
  · simp [h]; omega

/-- Which lanes of the tile at grid position `i` lie inside the matrix, as the body computes it. -/
def laneMask (i : grid0.Coords) : IVec S32x25088 1 :=
  cmpi .slt (addi (broadcast S32x25088 (Scalar.muli (BitVec.ofNat 32 (i 1).val) 25088#32)) (iota .tc S32x25088 32 [1] iota_S32x25088_d1_w32))
    (broadcast S32x25088 500000#32)

/-- Lane `l` of row `r` is kept exactly when its column is below 500000. -/
theorem laneMask_apply (i : grid0.Coords) (r : Fin 32) (l : Fin 25088) :
    laneMask i (ix2 r l) = BitVec.ofBool (decide ((i 1).val * 25088 + l.val < 500000)) := by
  unfold laneMask cmpi addi
  rw [broadcast_apply, broadcast_apply, iota_single_apply]
  show BitVec.ofBool ((BitVec.ofNat 32 (i 1).val * 25088#32 + BitVec.ofNat 32 l.val).slt 500000#32) = _
  rw [slt_lane _ _ (i 1).isLt l.isLt]

/-- A tile with the lanes outside the matrix read as zero. -/
def masked (i : grid0.Coords) (x : Vec F S32x25088 .f32) : Vec F S32x25088 .f32 :=
  select (laneMask i) x (broadcast S32x25088 (Scalar.ofBits .f32 0x00000000#32 : F .f32))

/-- The four lane sums of a tile pair, side by side: Σ|p|, Σ p², Σ|p − q|, Σ (p − q)², one row of four per matrix row. -/
def tileSums (p q : Vec F S32x25088 .f32) : FVec F S32x4 .f32 :=
  concatenate S32x4 1
    [⟨S32x1, shapeCast S32x1 (multiReduction .add [1] S32 (absf p) 0x00000000#32 reduces_S32x25088_S32 (.inl rfl) rfl) shapeCasts_S32_S32x1⟩,
     ⟨S32x1, shapeCast S32x1 (multiReduction .add [1] S32 (mulf p p) 0x00000000#32 reduces_S32x25088_S32 (.inl rfl) rfl) shapeCasts_S32_S32x1⟩,
     ⟨S32x1, shapeCast S32x1 (multiReduction .add [1] S32 (absf (subf p q)) 0x00000000#32 reduces_S32x25088_S32 (.inl rfl) rfl) shapeCasts_S32_S32x1⟩,
     ⟨S32x1, shapeCast S32x1 (multiReduction .add [1] S32 (mulf (subf p q) (subf p q)) 0x00000000#32 reduces_S32x25088_S32 (.inl rfl) rfl) shapeCasts_S32_S32x1⟩]
    concatenates_S32x1_S32x1_S32x1_S32x1_S32x4_d1

/-- What the body stores into the running sums: the old sums plus this tile's masked contribution. -/
theorem pay2_eq (i : grid0.Coords) (v3 v4 : Vec F S32x25088 .f32) (v28 : Vec F S32x4 .f32) :
    k0_pay2 i v3 v4 v28 = shapeCast S32x4 (addf v28 (tileSums (masked i v3) (masked i v4))) shapeCasts_S32x4_S32x4 := rfl

/-- At every grid point, a lane the mask keeps is a lane the fetch fills (both say: the column is inside the matrix). -/
theorem xsize_cols : ∀ t : Fin cfg0.N, win0_0.xsize (grid0.coords t) 0 = 32 ∧ win0_1.xsize (grid0.coords t) 0 = 32
    ∧ win0_0.xsize (grid0.coords t) 1 = min 25088 (500000 - (grid0.coords t 1).val * 25088)
    ∧ win0_1.xsize (grid0.coords t) 1 = min 25088 (500000 - (grid0.coords t 1).val * 25088) :=
  (by decide +kernel : ∀ t : Fin grid0.N, win0_0.xsize (grid0.coords t) 0 = 32 ∧ win0_1.xsize (grid0.coords t) 0 = 32
    ∧ win0_0.xsize (grid0.coords t) 1 = min 25088 (500000 - (grid0.coords t 1).val * 25088)
    ∧ win0_1.xsize (grid0.coords t) 1 = min 25088 (500000 - (grid0.coords t 1).val * 25088))

theorem moved_of_mask_0 (t : Fin cfg0.N) (j : S32x25088.Idx) (h : laneMask (grid0.coords t) j = 1) :
    win0_0.moved (grid0.coords t) j = true := by
  obtain ⟨r, l, rfl⟩ : ∃ (r : Fin 32) (l : Fin 25088), j = ix2 r l := ⟨j 0, j 1, eq_ix2 j⟩
  rw [laneMask_apply] at h
  have hlt : (grid0.coords t 1).val * 25088 + l.val < 500000 := by
    by_contra hn; rw [decide_eq_false hn] at h; exact absurd h (by decide)
  rw [Window.moved_iff]
  intro a
  obtain ⟨h0, -, h1, -⟩ := xsize_cols t
  match a with
  | ⟨0, _⟩ => rw [show win0_0.xsize (grid0.coords t) ⟨0, by decide⟩ = 32 from h0]; exact r.isLt
  | ⟨1, _⟩ =>
    rw [show win0_0.xsize (grid0.coords t) ⟨1, by decide⟩ = _ from h1]
    have := l.isLt
    show l.val < _
    omega

theorem moved_of_mask_1 (t : Fin cfg0.N) (j : S32x25088.Idx) (h : laneMask (grid0.coords t) j = 1) :
    win0_1.moved (grid0.coords t) j = true := by
  obtain ⟨r, l, rfl⟩ : ∃ (r : Fin 32) (l : Fin 25088), j = ix2 r l := ⟨j 0, j 1, eq_ix2 j⟩
  rw [laneMask_apply] at h
  have hlt : (grid0.coords t 1).val * 25088 + l.val < 500000 := by
    by_contra hn; rw [decide_eq_false hn] at h; exact absurd h (by decide)
  rw [Window.moved_iff]
  intro a
  obtain ⟨-, h0, -, h1⟩ := xsize_cols t
  match a with
  | ⟨0, _⟩ => rw [show win0_1.xsize (grid0.coords t) ⟨0, by decide⟩ = 32 from h0]; exact r.isLt
  | ⟨1, _⟩ =>
    rw [show win0_1.xsize (grid0.coords t) ⟨1, by decide⟩ = _ from h1]
    have := l.isLt
    show l.val < _
    omega

/-- So the masked tile does not depend on what the staging buffer held past the fetched part. -/
theorem masked_fill_0 (t : Fin cfg0.N) (d d' : S32x25088.Idx → Elt F .f32) (g : (win0_0.xblock (grid0.coords t)).Idx → Elt F .f32) :
    masked (grid0.coords t) (win0_0.fill (grid0.coords t) d g) = masked (grid0.coords t) (win0_0.fill (grid0.coords t) d' g) := by
  funext j
  unfold masked
  rw [select_apply, select_apply]
  unfold Scalar.select
  by_cases h : laneMask (grid0.coords t) j = 1
  · rw [if_pos h, if_pos h]
    have hm := moved_of_mask_0 t j h
    unfold Window.fill; rw [dif_pos hm, dif_pos hm]
  · rw [if_neg h, if_neg h]

theorem masked_fill_1 (t : Fin cfg0.N) (d d' : S32x25088.Idx → Elt F .f32) (g : (win0_1.xblock (grid0.coords t)).Idx → Elt F .f32) :
    masked (grid0.coords t) (win0_1.fill (grid0.coords t) d g) = masked (grid0.coords t) (win0_1.fill (grid0.coords t) d' g) := by
  funext j
  unfold masked
  rw [select_apply, select_apply]
  unfold Scalar.select
  by_cases h : laneMask (grid0.coords t) j = 1
  · rw [if_pos h, if_pos h]
    have hm := moved_of_mask_1 t j h
    unfold Window.fill; rw [dif_pos hm, dif_pos hm]
  · rw [if_neg h, if_neg h]

end Cert.KernelIdealHand

end
-- ==== Proof.IdealBody.lean ====
import proofs.«157880_j12292196401295_2_alg».proof.Proof.IdealEntry
import proofs.«157880_j12292196401295_2_alg».proof.Proof.LibRectReads

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any four whole buffers, tile by tile

`a2`, `a3` hold the two tiles, `a4` is the result's block, `a5` the running sums. Every access is of a
whole buffer: a load reads the contents and a store leaves its payload. -/

/-- A FIRST column tile: the running sums are set to zero, then this tile's four lane sums are added; the result's block is untouched. -/
theorem run_first (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : condFirst i) (hc1 : ¬condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare x2 ∗ owns (c : Thread nD τ) a5 fullShare (k0_pay2 i x0 x1 (k0_pay1 (F := F)))) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H5
  ipureintro
  rw [Cert.RectReads.read_writes_whole a5 _ Cert.RectReads.hz2 inb_S32x4_S32x4_0_0,
    Cert.RectReads.readAt_whole_unread a2 ha2 x0 Cert.RectReads.hz2 inb_S32x25088_S32x25088_0_0,
    Cert.RectReads.readAt_whole_unread a3 ha3 x1 Cert.RectReads.hz2 inb_S32x25088_S32x25088_0_0]
  sl_unfold_run_names
  rw [View.readCov_cons_toLoadRect]

/-- A MIDDLE column tile: this tile's four lane sums are added to the running sums; the result's block is untouched. -/
theorem run_mid (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : ¬condFirst i) (hc1 : ¬condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare x2 ∗ owns (c : Thread nD τ) a5 fullShare (k0_pay2 i x0 x1 s)) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H5
  ipureintro
  rw [Cert.RectReads.read_writes_whole a5 _ Cert.RectReads.hz2 inb_S32x4_S32x4_0_0,
    Cert.RectReads.readAt_whole_unread a2 ha2 x0 Cert.RectReads.hz2 inb_S32x25088_S32x25088_0_0,
    Cert.RectReads.readAt_whole_unread a3 ha3 x1 Cert.RectReads.hz2 inb_S32x25088_S32x25088_0_0,
    Cert.RectReads.readAt_whole_unread a5 ha5 s Cert.RectReads.hz2 inb_S32x4_S32x4_0_0]

/-- A LAST column tile: this tile's four lane sums are added, and the running sums are copied into the result's block. -/
theorem run_last (c : Dev nD) (i : grid0.Coords) (a2 : Memref sig .tc .vmem S32x25088 .f32) (ha2 : a2.IsWhole) (a3 : Memref sig .tc .vmem S32x25088 .f32) (ha3 : a3.IsWhole) (a4 : Memref sig .tc .vmem S32x4 .f32) (ha4 : a4.IsWhole) (a5 : Memref sig .tc .vmem S32x4 .f32) (ha5 : a5.IsWhole)
    (hc0 : ¬condFirst i) (hc1 : condLast i)
    (x0 x1 : Vec F S32x25088 .f32) (x2 s : Vec F S32x4 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare s
        ∗ (iprop(owns (c : Thread nD τ) a2 fullShare x0 ∗ owns (c : Thread nD τ) a3 fullShare x1 ∗ owns (c : Thread nD τ) a4 fullShare (k0_pay2 i x0 x1 s) ∗ owns (c : Thread nD τ) a5 fullShare (k0_pay2 i x0 x1 s)) -∗ K ⟨⟩))
      ⊢ wp frame (wpE (defs₀ (F := F)) Variants.none c none) E (cc0__param_norm_kernel i a2 ha2 a3 ha3 a4 ha4 a5 ha5) K := by
  simp only [cc0__param_norm_kernel_eq_skeleton]; unfold cc0__param_norm_kernel_skel
  unfold owns
  iintro ⟨⟨%f0, %hf0, H0⟩, ⟨%f1, %hf1, H1⟩, ⟨%f2, %hf2, H2⟩, ⟨%f5, %hf5, H5⟩, Hk⟩
  obtain rfl := ha2.eq_unread hf0; obtain rfl := ha3.eq_unread hf1; obtain rfl := ha4.eq_unread hf2; obtain rfl := ha5.eq_unread hf5
  sl_exec (disch := first | exact hc0 | exact hc1)
  sl_step
  iapply Hk
  have e5 : View.read (Elt F) a5.view (a5.view.writes (Elt F) (ha5.unread s)
      [⟨Rect.unit ![0, 0] S32x4.size inb_S32x4_S32x4_0_0,
        k0_pay2 i
          (View.readAt (Elt F) a2.view (Rect.unit ![0, 0] S32x25088.size inb_S32x25088_S32x25088_0_0).toLoadRect (ha2.unread x0))
          (View.readAt (Elt F) a3.view (Rect.unit ![0, 0] S32x25088.size inb_S32x25088_S32x25088_0_0).toLoadRect (ha3.unread x1))
          (View.readAt (Elt F) a5.view (Rect.unit ![0, 0] S32x4.size inb_S32x4_S32x4_0_0).toLoadRect (ha5.unread s))⟩]) = k0_pay2 i x0 x1 s := by
    rw [Cert.RectReads.read_writes_whole a5 _ Cert.RectReads.hz2 inb_S32x4_S32x4_0_0,
      Cert.RectReads.readAt_whole_unread a2 ha2 x0 Cert.RectReads.hz2 inb_S32x25088_S32x25088_0_0,
      Cert.RectReads.readAt_whole_unread a3 ha3 x1 Cert.RectReads.hz2 inb_S32x25088_S32x25088_0_0,
      Cert.RectReads.readAt_whole_unread a5 ha5 s Cert.RectReads.hz2 inb_S32x4_S32x4_0_0]
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    rw [Cert.RectReads.read_writes_whole a4 _ Cert.RectReads.hz2 inb_S32x4_S32x4_0_0]
    sl_unfold_run_names
    rw [View.readCov_cons_toLoadRect,
      Cert.RectReads.readAt_whole_unread a2 ha2 x0 Cert.RectReads.hz2 inb_S32x25088_S32x25088_0_0,
      Cert.RectReads.readAt_whole_unread a3 ha3 x1 Cert.RectReads.hz2 inb_S32x25088_S32x25088_0_0,
      Cert.RectReads.readAt_whole_unread a5 ha5 s Cert.RectReads.hz2 inb_S32x4_S32x4_0_0]
  iexists _; isplitr; swap; · iexact H5
  ipureintro
  exact e5

end Cert.KernelIdealHand

end
-- ==== Proof.IdealAccumulate.lean ====
import proofs.«157880_j12292196401295_2_alg».proof.Proof.IdealMask
import proofs.«157880_j12292196401295_2_alg».proof.Proof.IdealBody

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sums, point by point

Within a row half the 20 column tiles are visited in order; the running sums start from zero at
tile 0 and after tile `a` hold the four masked lane sums of tiles `0 … a`. They are copied to the
result's block at tile 19. -/

/-- The word a staging buffer is taken to hold past the fetched part: nothing reads it (`masked_fill_0`). -/
abbrev zfill : S32x25088.Idx → Elt F .f32 := fun _ => (Scalar.ofBits .f32 0x00000000#32 : F .f32)

/-- The two tiles the body finds at point `t`, filled out with zeros past the matrix's end. -/
def tin0 (c : Dev nD) (t : Fin cfg0.N) : Vec F S32x25088 .f32 := win0_0.fill (grid0.coords t) zfill (iblk m c 0 t)
def tin1 (c : Dev nD) (t : Fin cfg0.N) : Vec F S32x25088 .f32 := win0_1.fill (grid0.coords t) zfill (iblk m c 1 t)

/-- THE RUNNING SUMS after the body at position `n`: reset at a first column tile, else the sums the point before left, plus this tile's. -/
def acc (c : Dev nD) : (n : ℕ) → n < cfg0.N → Vec F S32x4 .f32
  | 0, hn => k0_pay2 (grid0.coords ⟨0, hn⟩) (tin0 m c ⟨0, hn⟩) (tin1 m c ⟨0, hn⟩) k0_pay1
  | n + 1, hn =>
    if (n + 1) % 20 = 0 then k0_pay2 (grid0.coords ⟨n + 1, hn⟩) (tin0 m c ⟨n + 1, hn⟩) (tin1 m c ⟨n + 1, hn⟩) k0_pay1
    else k0_pay2 (grid0.coords ⟨n + 1, hn⟩) (tin0 m c ⟨n + 1, hn⟩) (tin1 m c ⟨n + 1, hn⟩) (acc c n (Nat.lt_of_succ_lt hn))

theorem acc_first (c : Dev nD) (t : Fin cfg0.N) (h : t.val % 20 = 0) :
    acc m c t.val t.isLt = k0_pay2 (grid0.coords t) (tin0 m c t) (tin1 m c t) k0_pay1 := by
  obtain ⟨n, hn⟩ := t
  cases n with
  | zero => rfl
  | succ n => exact if_pos h

theorem acc_next (c : Dev nD) (t : Fin cfg0.N) (h : ¬t.val % 20 = 0) :
    acc m c t.val t.isLt = k0_pay2 (grid0.coords t) (tin0 m c t) (tin1 m c t)
      (acc m c (t.val - 1) (Nat.lt_of_le_of_lt (Nat.sub_le _ _) t.isLt)) := by
  obtain ⟨n, hn⟩ := t
  cases n with
  | zero => exact absurd (Nat.zero_mod _) h
  | succ n => exact if_neg h

/-- What the body computes from the buffers as it finds them is what it would from the zero-filled tiles. -/
theorem pay2_fill (t : Fin cfg0.N) (d0 d1 : S32x25088.Idx → Elt F .f32)
    (g0 : (win0_0.xblock (grid0.coords t)).Idx → Elt F .f32) (g1 : (win0_1.xblock (grid0.coords t)).Idx → Elt F .f32) (S : Vec F S32x4 .f32) :
    k0_pay2 (grid0.coords t) (win0_0.fill (grid0.coords t) d0 g0) (win0_1.fill (grid0.coords t) d1 g1) S
      = k0_pay2 (grid0.coords t) (win0_0.fill (grid0.coords t) zfill g0) (win0_1.fill (grid0.coords t) zfill g1) S := by
  rw [pay2_eq, pay2_eq, masked_fill_0 t d0 zfill g0, masked_fill_1 t d1 zfill g1]

/-- The region's invariant before position `n`: before the first point nothing is said of the running sums; afterwards their buffer holds `acc` of the point before. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The pipeline's proof data: the arrays as the region finds them; after the body the inputs' buffers at their tiles and the result's at the running sums. -/
def dats (_ : Fin 1) (c : Dev nD) : Dat τ (Elt F) Unit ℕ (UR sig nD τ) ℕ cfg0 c where
  A w := V m c (Pipeline.arrRef spec0 w)
  after w t := match w with
    | ⟨0, _⟩ => tin0 m c t
    | ⟨1, _⟩ => tin1 m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = tin0 m c t := by dsimp only [dats]
theorem after_1 (c : Dev nD) (t : Fin cfg0.N) : (dats m 0 c).after 1 t = tin1 m c t := by dsimp only [dats]
theorem after_2 (c : Dev nD) (t : Fin cfg0.N) : (dats m 0 c).after 2 t = acc m c t.val t.isLt := by dsimp only [dats]

/-- Each input's buffer, just fetched, holds its tile where the fetch filled it. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (ms_0 t) fullShare (win0_0.fill (grid0.coords t) d (iblk m c 0 t))) := by
  unfold Dat.leaves; rw [liveAt_0 t, after_0]
  show iprop(∃ d, owns (c : Thread nD τ) (ms_0 t) fullShare (win0_0.fill (grid0.coords t) d (win0_0.cut (grid0.coords t) (tin0 m c t)))) = _
  unfold tin0; rw [win0_0.cut_fill]
theorem leaves_1 (c : Dev nD) (t : Fin cfg0.N) : (dats m 0 c).leaves 1 t
    = iprop(∃ d, owns (c : Thread nD τ) (ms_1 t) fullShare (win0_1.fill (grid0.coords t) d (iblk m c 1 t))) := by
  unfold Dat.leaves; rw [liveAt_1 t, after_1]
  show iprop(∃ d, owns (c : Thread nD τ) (ms_1 t) fullShare (win0_1.fill (grid0.coords t) d (win0_1.cut (grid0.coords t) (tin1 m c t)))) = _
  unfold tin1; rw [win0_1.cut_fill]
theorem leaves_2_last (c : Dev nD) (t : Fin cfg0.N) (h : condLast (grid0.coords t)) : (dats m 0 c).leaves 2 t
    = owns (c : Thread nD τ) (ms_2 t) fullShare (acc m c t.val t.isLt) := by
  unfold Dat.leaves; rw [liveAt_2 t h, after_2]; try rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1]
  have hN : t.val < 40 := lt_of_lt_of_eq t.isLt (show cfg0.N = 40 from N_0)
  by_cases h0 : t.val % 20 = 0
  · -- a first column tile: the sums are reset, then this tile is added
    have hl : ¬condLast (grid0.coords t) := fun h => by have := (hcondLast t).mp h; omega
    rw [Dat.leaves_idle (dats m 0 c) 2 t (idleAt_2 t hl) (noFlush_2 t hl), acc_first m c t h0, PhiS_castSucc m c t]
    by_cases hz : t.val = 0
    · rw [PhiS_zero m c _ _ hz, PhiA_eq]
      iintro ⟨⟨⟨%ds, HS⟩, Hg⟩, Ho, ⟨%d0, H0⟩, ⟨%d1, H1⟩, ⟨%d2, H2⟩⟩
      rw [before_0 m c t d0, before_1 m c t d1]
      rw [show k0_pay2 (grid0.coords t) (tin0 m c t) (tin1 m c t) (k0_pay1 (F := F))
          = k0_pay2 (grid0.coords t) (win0_0.fill (grid0.coords t) d0 (iblk m c 0 t)) (win0_1.fill (grid0.coords t) d1 (iblk m c 1 t)) (k0_pay1 (F := F))
          from (pay2_fill t d0 d1 (iblk m c 0 t) (iblk m c 1 t) _).symm]
      iapply (run_first (F := F) c (grid0.coords t) (ms_0 t) (hs_0 t) (ms_1 t) (hs_1 t) (ms_2 t) (hs_2 t) scM (Memref.isWhole_whole _)
        ((hcondFirst t).mpr h0) hl _ _ _ ds Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2
    · rw [PhiS_pos m c _ _ hz]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (k0_pay1 (F := F))
          = k0_pay2 (grid0.coords t) (win0_0.fill (grid0.coords t) d0 (iblk m c 0 t)) (win0_1.fill (grid0.coords t) d1 (iblk m c 1 t)) (k0_pay1 (F := F))
          from (pay2_fill t d0 d1 (iblk m c 0 t) (iblk m c 1 t) _).symm]
      iapply (run_first (F := F) c (grid0.coords t) (ms_0 t) (hs_0 t) (ms_1 t) (hs_1 t) (ms_2 t) (hs_2 t) scM (Memref.isWhole_whole _)
        ((hcondFirst t).mpr h0) hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2
  · have hf : ¬condFirst (grid0.coords t) := fun h => h0 ((hcondFirst t).mp h)
    have hz : t.val ≠ 0 := fun h => h0 (by rw [h])
    rw [acc_next m c t h0, PhiS_castSucc m c t, PhiS_pos m c _ _ hz]
    by_cases h1 : t.val % 20 = 19
    · -- a last column tile: this tile is added and the sums are copied to the result's block
      have hl : condLast (grid0.coords t) := (hcondLast t).mpr h1
      rw [leaves_2_last m c t hl, acc_next m c t h0]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (acc m c (t.val - 1) (Nat.lt_of_le_of_lt (Nat.sub_le _ _) t.isLt))
          = k0_pay2 (grid0.coords t) (win0_0.fill (grid0.coords t) d0 (iblk m c 0 t)) (win0_1.fill (grid0.coords t) d1 (iblk m c 1 t)) (acc m c (t.val - 1) (Nat.lt_of_le_of_lt (Nat.sub_le _ _) t.isLt))
          from (pay2_fill t d0 d1 (iblk m c 0 t) (iblk m c 1 t) _).symm]
      iapply (run_last (F := F) c (grid0.coords t) (ms_0 t) (hs_0 t) (ms_1 t) (hs_1 t) (ms_2 t) (hs_2 t) scM (Memref.isWhole_whole _)
        hf hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexact H2
    · -- a middle column tile: this tile is added
      have hl : ¬condLast (grid0.coords t) := fun h => h1 ((hcondLast t).mp h)
      rw [Dat.leaves_idle (dats m 0 c) 2 t (idleAt_2 t hl) (noFlush_2 t hl)]
      iintro ⟨⟨HS, Hg⟩, Ho, ⟨%d0, H0⟩, ⟨%d1, H1⟩, ⟨%d2, H2⟩⟩
      rw [before_0 m c t d0, before_1 m c t d1]
      rw [show k0_pay2 (grid0.coords t) (tin0 m c t) (tin1 m c t) (acc m c (t.val - 1) (Nat.lt_of_le_of_lt (Nat.sub_le _ _) t.isLt))
          = k0_pay2 (grid0.coords t) (win0_0.fill (grid0.coords t) d0 (iblk m c 0 t)) (win0_1.fill (grid0.coords t) d1 (iblk m c 1 t)) (acc m c (t.val - 1) (Nat.lt_of_le_of_lt (Nat.sub_le _ _) t.isLt))
          from (pay2_fill t d0 d1 (iblk m c 0 t) (iblk m c 1 t) _).symm]
      iapply (run_mid (F := F) c (grid0.coords t) (ms_0 t) (hs_0 t) (ms_1 t) (hs_1 t) (ms_2 t) (hs_2 t) scM (Memref.isWhole_whole _)
        hf hl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexists d1; iexact H1
      iexists d2; iexact H2

/-- The library's body obligation, every window stated on the part its transfers move. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 40 := N_0; omega)

/-! ## The run -/

set_option backward.isDefEq.respectTransparency.types false in
/-- Every weakly fair execution of the program terminates; the pipeline's arrays end at what the write-backs leave, every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The five argument arrays end as they began: the two parameter matrices are inputs of the pipeline, the other three bypass it and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans (((dats m 0 c).arrAt_in 0 rfl _).trans ((A_eq m c 0).trans (V_main_arg2 m c))),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c)⟩) (run_main m ρ)

end Cert.KernelIdealHand

end
-- ==== Proof.RefRun.lean ====
import proofs.«157880_j12292196401295_2_alg».proof.Proof.RefOpsP
import Idealize.ShloMosaic.Lib.StableHlo.Run

noncomputable section

namespace Cert.ReferenceIdealHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The reference: a straight line of host operations

The reference computes the same five batch statistics of the logits, then the four row norms of the
parameter matrices as whole-row sums, and combines the nine columns as the kernel's program does. -/

/-- A core's buffers after all of the reference's operations, from the launch contents. -/
abbrev RV (m : (ℓ : Loc nD τ sig) → Buf (Elt F) ℓ) (c : Dev nD) : Valuation τ sig (Elt F) :=
  StableHlo.after ops (launchContents m c)

/-- Every weakly fair execution of the reference terminates with every buffer at the operations' fold. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = RV m c (Proc.devRef .tc b) :=
  run_seq scopedRefs_eq scopedSems_eq defs main (fun _ => ops) main_eq (fun _ => ops_sub) m ρ

set_option maxRecDepth 16384 in
set_option maxHeartbeats 16000000 in
/-- No operation writes an argument: the five argument arrays end as they began. -/
theorem kept (m : (ℓ : Loc nD τ sig) → Buf (Elt F) ℓ) (c : Dev nD) :
    RV m c (Proc.devRef .tc main_arg0) = m ((c.tc : Thread nD τ).loc main_arg0)
    ∧ RV m c (Proc.devRef .tc main_arg1) = m ((c.tc : Thread nD τ).loc main_arg1)
    ∧ RV m c (Proc.devRef .tc main_arg2) = m ((c.tc : Thread nD τ).loc main_arg2)
    ∧ RV m c (Proc.devRef .tc main_arg3) = m ((c.tc : Thread nD τ).loc main_arg3)
    ∧ RV m c (Proc.devRef .tc main_arg4) = m ((c.tc : Thread nD τ).loc main_arg4) :=
  ⟨by after_results_simp <;> rfl, by after_results_simp <;> rfl, by after_results_simp <;> rfl,
   by after_results_simp <;> rfl, by after_results_simp <;> rfl⟩

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (kept m c).1, (h c main_arg1).trans (kept m c).2.1,
    (h c main_arg2).trans (kept m c).2.2.1, (h c main_arg3).trans (kept m c).2.2.2.1, (h c main_arg4).trans (kept m c).2.2.2.2⟩)
    (run_after m ρ)

end Cert.ReferenceIdealHand

end
-- ==== Proof.IdealFinal.lean ====
import proofs.«157880_j12292196401295_2_alg».proof.Proof.IdealAccumulate
import Idealize.ShloMosaic.Lib.Pipeline.Value

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The region's result: every row's four sums

The result's block of row half `h` is written back once, at the half's last column tile (point
`20 h + 19`), holding the running sums there. The two blocks are rows 0–31 and 32–63. -/

/-- The result window's block index at point `t`: the row half, and column block 0. -/
theorem idx_out : ∀ t : Fin cfg0.N, win0_2.index t (0 : Fin 2) = t.val / 20 ∧ win0_2.index t (1 : Fin 2) = 0 :=
  (by decide +kernel : ∀ t : Fin grid0.N, win0_2.index t (0 : Fin 2) = t.val / 20 ∧ win0_2.index t (1 : Fin 2) = 0)

theorem acc_congr (c : Dev nD) {n n' : ℕ} (h : n < cfg0.N) (h' : n' < cfg0.N) (e : n = n') : acc m c n h = acc m c n' h' := by
  subst e; rfl

/-- Sum `j` of row `R`: the running sums after the last column tile of `R`'s half, at `R`'s row of the block. -/
def rowSums (c : Dev nD) (R : Fin 64) (j : Fin 4) : Elt F .f32 :=
  acc m c (20 * (R.val / 32) + 19) (by have := R.isLt; have : cfg0.N = 40 := N_0; omega)
    (ix2 (⟨R.val % 32, Nat.mod_lt _ (by decide)⟩ : Fin 32) j)

/-- The whole 64 × 4 result. -/
def finalSums (c : Dev nD) : S64x4.Idx → Elt F .f32 := fun i => rowSums m c ⟨(i 0).val, (i 0).isLt⟩ ⟨(i 1).val, (i 1).isLt⟩

/-- What a half's last tile writes back is that half's block of `finalSums`. -/
theorem flushed_eq (c : Dev nD) (t : Fin cfg0.N) (hf : (cfg0.win 2).flush t = true) :
    (dats m 0 c).flushed 2 t = ((cfg0.win 2).blk t).view.read (Elt F) (finalSums m c) := by
  show (cfg0.win 2).cut (grid0.coords t) ((dats m 0 c).after 2 t) = _
  rw [after_2]
  have h19 := (flush0_2 t).mp hf
  obtain ⟨e0, e1⟩ := idx_out t
  funext j
  have hj0 : (j 0).val < 32 := (j 0).isLt
  have hj1 : (j 1).val < 4 := (j 1).isLt
  show acc m c t.val t.isLt ((cfg0.win 2).xinj (grid0.coords t) j) = finalSums m c (((cfg0.win 2).blk t).view.emb j)
  have he0 : ((((cfg0.win 2).blk t).view.emb j) 0).val = win0_2.index t (0 : Fin 2) * 32 + 1 * (j 0).val := rfl
  have he1 : ((((cfg0.win 2).blk t).view.emb j) 1).val = win0_2.index t (1 : Fin 2) * 4 + 1 * (j 1).val := rfl
  unfold finalSums rowSums
  have hn : 20 * ((((cfg0.win 2).blk t).view.emb j 0).val / 32) + 19 = t.val := by rw [he0, e0]; omega
  rw [acc_congr m c _ t.isLt hn]
  refine congrArg (acc m c t.val t.isLt) (funext fun a => Fin.ext ?_)
  match a with
  | ⟨0, _⟩ => show (j 0).val = ((((cfg0.win 2).blk t).view.emb j) 0).val % 32; rw [he0, e0]; omega
  | ⟨1, _⟩ => show (j 1).val = ((((cfg0.win 2).blk t).view.emb j) 1).val; rw [he1, e1]; omega

theorem mem_blk (t : Fin cfg0.N) (i : S64x4.Idx) :
    i ∈ ((cfg0.win 2).blk t).view.set ↔ ∀ a : Fin 2, win0_2.index t a * S32x4.size a ≤ (i a).val ∧ (i a).val < win0_2.index t a * S32x4.size a + S32x4.size a := by
  show i ∈ ((View.whole main_v38).slice (win0_2.rect t)).set ↔ _
  rw [View.set_slice_whole, Rect.mem_set_unit]
  exact Iff.rfl

/-- Every entry of the result lies in its half's block. -/
theorem cover (i : S64x4.Idx) : ∃ t : Fin cfg0.N, (cfg0.win 2).flush t = true ∧ i ∈ ((cfg0.win 2).blk t).view.set := by
  have hi0 : (i 0).val < 64 := (i 0).isLt
  have hi1 : (i 1).val < 4 := (i 1).isLt
  have hN : cfg0.N = 40 := N_0
  have hlt : 20 * ((i 0).val / 32) + 19 < cfg0.N := by omega
  refine ⟨⟨20 * ((i 0).val / 32) + 19, hlt⟩, (flush0_2 _).mpr (by show (20 * ((i 0).val / 32) + 19) % 20 = 19; omega), ?_⟩
  rw [mem_blk]
  obtain ⟨e0, e1⟩ := idx_out ⟨20 * ((i 0).val / 32) + 19, hlt⟩
  have e0' : win0_2.index ⟨20 * ((i 0).val / 32) + 19, hlt⟩ (0 : Fin 2) = (20 * ((i 0).val / 32) + 19) / 20 := e0
  intro a
  match a with
  | ⟨0, _⟩ =>
    show win0_2.index ⟨20 * ((i 0).val / 32) + 19, hlt⟩ (0 : Fin 2) * 32 ≤ (i 0).val ∧ (i 0).val < win0_2.index ⟨20 * ((i 0).val / 32) + 19, hlt⟩ (0 : Fin 2) * 32 + 32
    rw [e0']; omega
  | ⟨1, _⟩ =>
    show win0_2.index ⟨20 * ((i 0).val / 32) + 19, hlt⟩ (1 : Fin 2) * 4 ≤ (i 1).val ∧ (i 1).val < win0_2.index ⟨20 * ((i 0).val / 32) + 19, hlt⟩ (1 : Fin 2) * 4 + 4
    rw [e1]; omega

/-- THE RESULT ARRAY after the region. -/
theorem final_sums (c : Dev nD) : (dats m 0 c).arrAt 2 cfg0.N = finalSums m c :=
  (dats m 0 c).arrAt_eq_of_cover 2 (finalSums m c) (fun t hf => flushed_eq m c t hf) (cover)

end Cert.KernelIdealHand

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.TileSums.lean ====
import Idealize.ShloMosaic.PureOps.Ideal
import proofs.«157880_j12292196401295_2_alg».proof.Proof.LibChunkedSum
import proofs.«157880_j12292196401295_2_alg».proof.Proof.LibERealSums

noncomputable section

namespace Cert.TileSums

open Finset Cert.ChunkedSum

/-! ## Twenty column tiles make one row

A row has 500000 columns; twenty tiles of 25088 lanes cover 501760, so the last tile overhangs by
1760 lanes. A lane past the row's end contributes zero. Summing tile by tile, each lane counted only
inside the row, is summing the row; and a total that starts at zero and adds one tile's sum at a time
is, after the twentieth tile, that sum. Both hold in any commutative monoid (on the extended reals: no
finiteness is used). -/

variable {β : Type*} [AddCommMonoid β]

/-- Tile by tile, each lane extended by zero past the row's end, is the whole row. -/
theorem sum_tiles (f : Fin 500000 → β) :
    ∑ s ∈ range 20, ∑ j : Fin 25088, ext0 f (s * 25088 + j.val) = ∑ k : Fin 500000, f k := by
  rw [← sum_fin_chunks 20 25088 (ext0 f), Fin.sum_univ_eq_sum_range (fun h => ext0 f h) (20 * 25088),
    show 20 * 25088 = 500000 + 1760 from rfl, Finset.sum_range_add]
  have hz : ∑ x ∈ range 1760, ext0 f (500000 + x) = 0 :=
    Finset.sum_eq_zero fun x _ => by unfold ext0; rw [dif_neg (by omega)]
  rw [hz, add_zero, ← Fin.sum_univ_eq_sum_range (fun k => ext0 f k) 500000]
  exact Finset.sum_congr rfl fun k _ => ext0_val f k

/-- A running total over the twenty tiles, started from zero, ends at the row's sum. -/
theorem running_total (f : Fin 500000 → EReal) (acc : ℕ → EReal)
    (h0 : acc 0 = 0 + ∑ j : Fin 25088, ext0 f (0 * 25088 + j.val))
    (hs : ∀ k, k + 1 ≤ 19 → acc (k + 1) = acc k + ∑ j : Fin 25088, ext0 f ((k + 1) * 25088 + j.val)) :
    acc 19 = ∑ k : Fin 500000, f k := by
  rw [Cert.LibERealSums.acc_eq_sum_le (fun s => ∑ j : Fin 25088, ext0 f (s * 25088 + j.val)) acc 19 h0 hs 19 le_rfl]
  exact sum_tiles f

end Cert.TileSums

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.IdealRowSums.lean ====
import proofs.«157880_j12292196401295_2_alg».proof.Proof.IdealFinal
import proofs.«157880_j12292196401295_2_alg».proof.Proof.TileSums
import proofs.«157880_j12292196401295_2_alg».proof.Proof.LibRowOps
import Idealize.ShloMosaic.PureOps.Ideal.Laws
import Idealize.ShloMosaic.Lib.ValueLayout

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.ChunkedSum

/-! ## Each row's four sums, on the extended reals

For a row `R` of the two matrices `P`, `Q` the kernel ends with Σ|P|, Σ P², Σ|P − Q|, Σ (P − Q)² over the
row's 500000 columns: a masked lane reads `P` inside the row and zero past its end, each of the four
terms is zero at (0, 0), so a tile's lane sum is the sum over its columns of the term extended by zero,
and the running total over the twenty tiles is the whole row's sum. No finiteness is used. -/

/-- The four terms: |x|, x², |x − y|, (x − y)². -/
def laneTerm (j : Fin 4) (x y : EReal) : EReal :=
  match j with
  | 0 => max x (-x)
  | 1 => x * x
  | 2 => max (x - y) (-(x - y))
  | 3 => (x - y) * (x - y)

theorem laneTerm_zero (j : Fin 4) : laneTerm j 0 0 = 0 := by
  fin_cases j <;> simp [laneTerm]

/-- Where point `t` is in the grid, and which blocks of the matrices it reads. -/
theorem pt_coords : ∀ t : Fin cfg0.N, (grid0.coords t 0).val = t.val / 20 ∧ (grid0.coords t 1).val = t.val % 20
    ∧ win0_0.index t (0 : Fin 2) = t.val / 20 ∧ win0_0.index t (1 : Fin 2) = t.val % 20
    ∧ win0_1.index t (0 : Fin 2) = t.val / 20 ∧ win0_1.index t (1 : Fin 2) = t.val % 20 :=
  (by decide +kernel : ∀ t : Fin grid0.N, (grid0.coords t 0).val = t.val / 20 ∧ (grid0.coords t 1).val = t.val % 20
    ∧ win0_0.index t (0 : Fin 2) = t.val / 20 ∧ win0_0.index t (1 : Fin 2) = t.val % 20
    ∧ win0_1.index t (0 : Fin 2) = t.val / 20 ∧ win0_1.index t (1 : Fin 2) = t.val % 20)

variable (mI : (ℓ : Loc nD τ sig) → Buf (Elt Ideal) ℓ)

/-- The two parameter matrices as the region finds them, as arrays of extended reals. -/
abbrev matP (c : Dev nD) : FVec Ideal S64x500000 .f32 := V mI c main_arg2
abbrev matQ (c : Dev nD) : FVec Ideal S64x500000 .f32 := V mI c main_arg3

/-- A masked lane of the first matrix's tile: the matrix entry inside the row, zero past its end. -/
theorem masked_tin0_apply (c : Dev nD) (t : Fin cfg0.N) (r : Fin 32) (l : Fin 25088) (R : Fin 64) (hR : R.val = 32 * (t.val / 20) + r.val) :
    masked (grid0.coords t) (tin0 mI c t) (ix2 r l)
      = ext0 (fun k : Fin 500000 => matP mI c (ix2 R k)) (t.val % 20 * 25088 + l.val) := by
  obtain ⟨c0, c1, i0, i1, -, -⟩ := pt_coords t
  unfold masked
  rw [select_apply, laneMask_apply, c1]
  unfold Scalar.select
  by_cases hcol : t.val % 20 * 25088 + l.val < 500000
  · have hmask : laneMask (grid0.coords t) (ix2 r l) = 1 := by rw [laneMask_apply, c1, decide_eq_true hcol]; rfl
    rw [decide_eq_true hcol, if_pos (by rfl)]
    unfold ext0; rw [dif_pos hcol]
    have hm : win0_0.moved (grid0.coords t) (ix2 r l) = true := moved_of_mask_0 t (ix2 r l) hmask
    unfold tin0 Window.fill; rw [dif_pos hm]
    unfold iblk
    rw [View.read_apply]
    show V mI c main_arg2 _ = V mI c main_arg2 _
    refine congrArg (V mI c main_arg2) (funext fun a => Fin.ext ?_)
    match a with
    | ⟨0, _⟩ => show win0_0.index t (0 : Fin 2) * 32 + 1 * r.val = R.val; rw [i0, hR]; omega
    | ⟨1, _⟩ => show win0_0.index t (1 : Fin 2) * 25088 + 1 * l.val = t.val % 20 * 25088 + l.val; rw [i1]; omega
  · rw [decide_eq_false hcol, if_neg (by decide)]
    unfold ext0; rw [dif_neg hcol, broadcast_apply]
    exact Ideal.ofBits_zero_f32

/-- The same for the second matrix. -/
theorem masked_tin1_apply (c : Dev nD) (t : Fin cfg0.N) (r : Fin 32) (l : Fin 25088) (R : Fin 64) (hR : R.val = 32 * (t.val / 20) + r.val) :
    masked (grid0.coords t) (tin1 mI c t) (ix2 r l)
      = ext0 (fun k : Fin 500000 => matQ mI c (ix2 R k)) (t.val % 20 * 25088 + l.val) := by
  obtain ⟨c0, c1, -, -, i0, i1⟩ := pt_coords t
  unfold masked
  rw [select_apply, laneMask_apply, c1]
  unfold Scalar.select
  by_cases hcol : t.val % 20 * 25088 + l.val < 500000
  · have hmask : laneMask (grid0.coords t) (ix2 r l) = 1 := by rw [laneMask_apply, c1, decide_eq_true hcol]; rfl
    rw [decide_eq_true hcol, if_pos (by rfl)]
    unfold ext0; rw [dif_pos hcol]
    have hm : win0_1.moved (grid0.coords t) (ix2 r l) = true := moved_of_mask_1 t (ix2 r l) hmask
    unfold tin1 Window.fill; rw [dif_pos hm]
    unfold iblk
    rw [View.read_apply]
    show V mI c main_arg3 _ = V mI c main_arg3 _
    refine congrArg (V mI c main_arg3) (funext fun a => Fin.ext ?_)
    match a with
    | ⟨0, _⟩ => show win0_1.index t (0 : Fin 2) * 32 + 1 * r.val = R.val; rw [i0, hR]; omega
    | ⟨1, _⟩ => show win0_1.index t (1 : Fin 2) * 25088 + 1 * l.val = t.val % 20 * 25088 + l.val; rw [i1]; omega
  · rw [decide_eq_false hcol, if_neg (by decide)]
    unfold ext0; rw [dif_neg hcol, broadcast_apply]
    exact Ideal.ofBits_zero_f32

/-- A keepdims column [32] → [32, 1] read at (r, 0). -/
theorem column_apply (v : FVec Ideal S32 .f32) (r : Fin 32) (u : Fin 1) :
    shapeCast S32x1 v shapeCasts_S32_S32x1 (ix2 r u) = v (ix1 r) := by
  refine shapeCast_apply v shapeCasts_S32_S32x1 (ix2 r u) (ix1 r) ?_
  rw [Shape.rowMajor_val_one, Shape.rowMajor_val_two]
  have := u.isLt
  show r.val = r.val * 1 + u.val
  omega

/-- Four unit-width columns laid side by side, read at (r, j): column `j` at (r, 0). -/
theorem four_columns (cA cB cC cD : FVec Ideal S32x1 .f32) (r : Fin 32) (j : Fin 4) :
    concatenate S32x4 1 [⟨S32x1, cA⟩, ⟨S32x1, cB⟩, ⟨S32x1, cC⟩, ⟨S32x1, cD⟩] concatenates_S32x1_S32x1_S32x1_S32x1_S32x4_d1 (ix2 r j)
      = (match j with | 0 => cA | 1 => cB | 2 => cC | 3 => cD) (ix2 r (0 : Fin 1)) := by
  fin_cases j
  · exact concatenate_apply_piece (t := S32x4) (1 : Fin 2) [⟨S32x1, cA⟩, ⟨S32x1, cB⟩, ⟨S32x1, cC⟩, ⟨S32x1, cD⟩] concatenates_S32x1_S32x1_S32x1_S32x1_S32x4_d1
      (ix2 r (0 : Fin 4)) 0 (by simp) S32x1 cA rfl rfl 0 rfl (ix2 r (0 : Fin 1))
      (fun b hb => by match b with | ⟨0, _⟩ => rfl | ⟨1, _⟩ => exact absurd rfl hb) rfl
  · exact concatenate_apply_piece (t := S32x4) (1 : Fin 2) [⟨S32x1, cA⟩, ⟨S32x1, cB⟩, ⟨S32x1, cC⟩, ⟨S32x1, cD⟩] concatenates_S32x1_S32x1_S32x1_S32x1_S32x4_d1
      (ix2 r (1 : Fin 4)) 1 (by simp) S32x1 cB rfl rfl 1 rfl (ix2 r (0 : Fin 1))
      (fun b hb => by match b with | ⟨0, _⟩ => rfl | ⟨1, _⟩ => exact absurd rfl hb) rfl
  · exact concatenate_apply_piece (t := S32x4) (1 : Fin 2) [⟨S32x1, cA⟩, ⟨S32x1, cB⟩, ⟨S32x1, cC⟩, ⟨S32x1, cD⟩] concatenates_S32x1_S32x1_S32x1_S32x1_S32x4_d1
      (ix2 r (2 : Fin 4)) 2 (by simp) S32x1 cC rfl rfl 2 rfl (ix2 r (0 : Fin 1))
      (fun b hb => by match b with | ⟨0, _⟩ => rfl | ⟨1, _⟩ => exact absurd rfl hb) rfl
  · exact concatenate_apply_piece (t := S32x4) (1 : Fin 2) [⟨S32x1, cA⟩, ⟨S32x1, cB⟩, ⟨S32x1, cC⟩, ⟨S32x1, cD⟩] concatenates_S32x1_S32x1_S32x1_S32x1_S32x4_d1
      (ix2 r (3 : Fin 4)) 3 (by simp) S32x1 cD rfl rfl 3 rfl (ix2 r (0 : Fin 1))
      (fun b hb => by match b with | ⟨0, _⟩ => rfl | ⟨1, _⟩ => exact absurd rfl hb) rfl

/-- One tile's four sums at (r, j): the lane sum of term `j`. -/
theorem tileSums_apply (p q : FVec Ideal S32x25088 .f32) (r : Fin 32) (j : Fin 4) :
    tileSums (F := Ideal) p q (ix2 r j) = ∑ l : Fin 25088, laneTerm j (p (ix2 r l)) (q (ix2 r l)) := by
  unfold tileSums
  rw [four_columns]
  fin_cases j
  · show shapeCast S32x1 (multiReduction .add [1] S32 (absf p) 0x00000000#32 reduces_S32x25088_S32 (.inl rfl) rfl) shapeCasts_S32_S32x1 (ix2 r (0 : Fin 1)) = _
    rw [column_apply]
    exact (Cert.RowOps.laneSum_apply (absf p) reduces_S32x25088_S32 (.inl rfl) rfl r).trans rfl
  · show shapeCast S32x1 (multiReduction .add [1] S32 (mulf p p) 0x00000000#32 reduces_S32x25088_S32 (.inl rfl) rfl) shapeCasts_S32_S32x1 (ix2 r (0 : Fin 1)) = _
    rw [column_apply]
    exact (Cert.RowOps.laneSum_apply (mulf p p) reduces_S32x25088_S32 (.inl rfl) rfl r).trans rfl
  · show shapeCast S32x1 (multiReduction .add [1] S32 (absf (subf p q)) 0x00000000#32 reduces_S32x25088_S32 (.inl rfl) rfl) shapeCasts_S32_S32x1 (ix2 r (0 : Fin 1)) = _
    rw [column_apply]
    exact (Cert.RowOps.laneSum_apply (absf (subf p q)) reduces_S32x25088_S32 (.inl rfl) rfl r).trans rfl
  · show shapeCast S32x1 (multiReduction .add [1] S32 (mulf (subf p q) (subf p q)) 0x00000000#32 reduces_S32x25088_S32 (.inl rfl) rfl) shapeCasts_S32_S32x1 (ix2 r (0 : Fin 1)) = _
    rw [column_apply]
    exact (Cert.RowOps.laneSum_apply (mulf (subf p q) (subf p q)) reduces_S32x25088_S32 (.inl rfl) rfl r).trans rfl

/-- A term of two zero-extended rows is the zero-extended term. -/
theorem laneTerm_ext0 (j : Fin 4) (P Q : Fin 500000 → EReal) (x : ℕ) :
    laneTerm j (ext0 P x) (ext0 Q x) = ext0 (fun k => laneTerm j (P k) (Q k)) x := by
  unfold ext0
  by_cases h : x < 500000
  · rw [dif_pos h, dif_pos h, dif_pos h]
  · rw [dif_neg h, dif_neg h, dif_neg h]; exact laneTerm_zero j

/-- The tile at point `t` contributes, to sum `j` of row `R`, the zero-extended term over the tile's columns. -/
theorem tile_contribution (c : Dev nD) (t : Fin cfg0.N) (r : Fin 32) (j : Fin 4) (R : Fin 64) (hR : R.val = 32 * (t.val / 20) + r.val) :
    tileSums (masked (grid0.coords t) (tin0 mI c t)) (masked (grid0.coords t) (tin1 mI c t)) (ix2 r j)
      = ∑ l : Fin 25088, ext0 (fun k : Fin 500000 => laneTerm j (matP mI c (ix2 R k)) (matQ mI c (ix2 R k))) (t.val % 20 * 25088 + l.val) := by
  rw [tileSums_apply]
  refine Finset.sum_congr rfl fun l _ => ?_
  rw [masked_tin0_apply mI c t r l R hR, masked_tin1_apply mI c t r l R hR, laneTerm_ext0]

/-- The running sums after a first tile, at (r, j): zero plus the tile's contribution. -/
theorem acc_first_apply (c : Dev nD) (t : Fin cfg0.N) (h : t.val % 20 = 0) (r : Fin 32) (j : Fin 4) :
    acc mI c t.val t.isLt (ix2 r j)
      = 0 + tileSums (masked (grid0.coords t) (tin0 mI c t)) (masked (grid0.coords t) (tin1 mI c t)) (ix2 r j) := by
  rw [acc_first mI c t h, pay2_eq, shapeCast_self, addf_apply]
  refine congrArg (· + _) ?_
  unfold k0_pay1
  rw [shapeCast_self, broadcast_apply]
  exact Ideal.ofBits_zero_f32

/-- After a later tile: what the tile before left, plus this tile's contribution. -/
theorem acc_next_apply (c : Dev nD) (t : Fin cfg0.N) (h : ¬t.val % 20 = 0) (r : Fin 32) (j : Fin 4) :
    acc mI c t.val t.isLt (ix2 r j)
      = acc mI c (t.val - 1) (Nat.lt_of_le_of_lt (Nat.sub_le _ _) t.isLt) (ix2 r j)
        + tileSums (masked (grid0.coords t) (tin0 mI c t)) (masked (grid0.coords t) (tin1 mI c t)) (ix2 r j) := by
  rw [acc_next mI c t h, pay2_eq, shapeCast_self, addf_apply]

/-- SUM `j` OF ROW `R` is the whole row's sum of term `j`. -/
theorem rowSums_eq (c : Dev nD) (R : Fin 64) (j : Fin 4) :
    rowSums mI c R j = ∑ k : Fin 500000, laneTerm j (matP mI c (ix2 R k)) (matQ mI c (ix2 R k)) := by
  have hN : cfg0.N = 40 := N_0
  have hR : R.val < 64 := R.isLt
  -- the running sums of `R`'s half at `R`'s row, tile by tile
  let A : ℕ → EReal := fun k => if hk : k < 20 then
      acc mI c (20 * (R.val / 32) + k) (by omega) (ix2 (⟨R.val % 32, Nat.mod_lt _ (by decide)⟩ : Fin 32) j) else 0
  have hA19 : rowSums mI c R j = A 19 := by
    show _ = if hk : 19 < 20 then _ else _
    rw [dif_pos (by decide)]; rfl
  rw [hA19]
  refine Cert.TileSums.running_total _ A ?_ ?_
  · show (if hk : 0 < 20 then _ else _) = _
    rw [dif_pos (by decide)]
    have ht : 20 * (R.val / 32) + 0 < cfg0.N := by omega
    have e := acc_first_apply mI c ⟨20 * (R.val / 32) + 0, ht⟩ (by show (20 * (R.val / 32) + 0) % 20 = 0; omega) ⟨R.val % 32, Nat.mod_lt _ (by decide)⟩ j
    rw [tile_contribution mI c ⟨20 * (R.val / 32) + 0, ht⟩ _ j R (by show R.val = 32 * ((20 * (R.val / 32) + 0) / 20) + R.val % 32; omega)] at e
    rw [show (⟨20 * (R.val / 32) + 0, ht⟩ : Fin cfg0.N).val % 20 = 0 from by show (20 * (R.val / 32) + 0) % 20 = 0; omega] at e
    exact e
  · intro k hk
    show (if hk' : k + 1 < 20 then _ else _) = (if hk' : k < 20 then _ else _) + _
    rw [dif_pos (by omega), dif_pos (by omega)]
    have ht : 20 * (R.val / 32) + (k + 1) < cfg0.N := by omega
    have e := acc_next_apply mI c ⟨20 * (R.val / 32) + (k + 1), ht⟩ (by show ¬(20 * (R.val / 32) + (k + 1)) % 20 = 0; omega) ⟨R.val % 32, Nat.mod_lt _ (by decide)⟩ j
    rw [tile_contribution mI c ⟨20 * (R.val / 32) + (k + 1), ht⟩ _ j R (by show R.val = 32 * ((20 * (R.val / 32) + (k + 1)) / 20) + R.val % 32; omega)] at e
    rw [show (⟨20 * (R.val / 32) + (k + 1), ht⟩ : Fin cfg0.N).val % 20 = k + 1 from by show (20 * (R.val / 32) + (k + 1)) % 20 = k + 1; omega] at e
    rw [e]
    refine congrArg (· + _) ?_
    exact congrFun (acc_congr mI c (n := 20 * (R.val / 32) + (k + 1) - 1) (n' := 20 * (R.val / 32) + k) (by omega) (by omega) (by omega)) _

end Cert.KernelIdealHand

end
-- ==== Proof.Combine.lean ====
import Idealize.ShloMosaic.Lib.Pipeline.Value
import Idealize.ShloMosaic.PureOps.Ideal.Laws
import Idealize.ShloMosaic.Lib.StableHlo.Run

noncomputable section

namespace Cert.Combine

open Idealize.ShloMosaic

/-! ## From nine columns to the loss

Both programs end the same way: the five batch statistics are stacked into a row and repeated for each
of the 64 parameter rows, the four row norms are laid beside them as columns, the 64 x 9 table is
weighed entry by entry by the logistic function of the weights, summed, and divided by 576. -/

abbrev S_ : Shape := ⟨0, ![]⟩
abbrev S1 : Shape := ⟨1, ![1]⟩
abbrev S5 : Shape := ⟨1, ![5]⟩
abbrev S64 : Shape := ⟨1, ![64]⟩
abbrev S64x1 : Shape := ⟨2, ![64, 1]⟩
abbrev S64x4 : Shape := ⟨2, ![64, 4]⟩
abbrev S64x5 : Shape := ⟨2, ![64, 5]⟩
abbrev S64x9 : Shape := ⟨2, ![64, 9]⟩

/-- The weighted average of the nine columns: `s1 … s5` the statistics, `n1 … n4` the row norms, `w` the weights. -/
def combine (hS : 0 < S_.numel) (hb1 : S_.BroadcastsInDim S1 (![] : Fin 0 → Fin S1.rank))
    (hc5 : Shape.Concatenates [S1, S1, S1, S1, S1] S5 0) (hb5 : S5.BroadcastsInDim S64x5 (![1] : Fin 1 → Fin S64x5.rank))
    (hb64 : S64.BroadcastsInDim S64x1 (![0] : Fin 1 → Fin S64x1.rank))
    (hc4 : Shape.Concatenates [S64x1, S64x1, S64x1, S64x1] S64x4 1) (hc9 : Shape.Concatenates [S64x5, S64x4] S64x9 1)
    (hb9 : S_.BroadcastsInDim S64x9 (![] : Fin 0 → Fin S64x9.rank)) (hr : S64x9.ReducesTo [0, 1] S_)
    (s1 s2 s3 s4 s5 : FVec Ideal S_ .f32) (n1 n2 n3 n4 : FVec Ideal S64 .f32) (w : FVec Ideal S64x9 .f32) : FVec Ideal S_ .f32 :=
  Host.divf
    (Host.reduceAdd
      (mulf
        (Host.divf (broadcastInDim S64x9 ![] hb9 (constant (F := Ideal) S_ .f32 0x3F800000#32))
          (addf (broadcastInDim S64x9 ![] hb9 (constant (F := Ideal) S_ .f32 0x3F800000#32)) (Host.exp (Host.negf w))))
        (concatenate S64x9 1
          [⟨S64x5, broadcastInDim S64x5 ![1] hb5
              (concatenate S5 0 [⟨S1, broadcastInDim S1 ![] hb1 s1⟩, ⟨S1, broadcastInDim S1 ![] hb1 s2⟩, ⟨S1, broadcastInDim S1 ![] hb1 s3⟩,
                ⟨S1, broadcastInDim S1 ![] hb1 s4⟩, ⟨S1, broadcastInDim S1 ![] hb1 s5⟩] hc5)⟩,
           ⟨S64x4, concatenate S64x4 1 [⟨S64x1, broadcastInDim S64x1 ![0] hb64 n1⟩, ⟨S64x1, broadcastInDim S64x1 ![0] hb64 n2⟩,
                ⟨S64x1, broadcastInDim S64x1 ![0] hb64 n3⟩, ⟨S64x1, broadcastInDim S64x1 ![0] hb64 n4⟩] hc4⟩] hc9))
      (constant (F := Ideal) S_ .f32 0x00000000#32) hr hS)
    (constant (F := Ideal) S_ .f32 0x44100000#32)

end Cert.Combine

end
-- ==== Proof.LibNary5.lean ====
/-
  A host operation over a literal family of FIVE references (a five-way concatenation: five scalars stacked into
  a vector) leaves, at its result, its function of the five operands' contents — each operand's contents at its own
  reference, so that a run of rewrites can go on into the operands. The companion of the library's statement for
  four references. Plus the rewriting loop over a straight line of host operations that uses it.
-/
import Idealize.ShloMosaic.Lib.StableHlo.Run

noncomputable section

namespace Cert.Nary5

open Idealize.ShloMosaic Idealize.ShloMosaic.StableHlo

variable {τ : Topo} {sig : RefSig} {Val : EltTy → Type}
variable {x a b c d y : Ref sig .tc}

/-- The result of a five-operand operation, with each operand's contents at its own reference. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same, keyed for a simplifier pass. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

/-- A five-operand operation leaves every buffer but its result untouched. -/
theorem nary5_result_ne'
    (f : ((k : Fin 5) → ((![x, a, b, c, d] : Fin 5 → Ref sig .tc) k).ty.Contents Val) → y.ty.Contents Val) (hxs hy)
    (F : Valuation τ sig Val) {r : Ref sig .tc} (h : r ≠ y) :
    (nary (τ := τ) ![x, a, b, c, d] y f hxs hy).result F (no_index (Proc.devRef .tc r)) = F (Proc.devRef .tc r) := by
  rw [nary_result_ne]; exact h

/-- A four-operand operation leaves every buffer but its result untouched. -/
theorem nary4_result_ne'
    (f : ((k : Fin 4) → ((![x, a, b, c] : Fin 4 → Ref sig .tc) k).ty.Contents Val) → y.ty.Contents Val) (hxs hy)
    (F : Valuation τ sig Val) {r : Ref sig .tc} (h : r ≠ y) :
    (nary (τ := τ) ![x, a, b, c] y f hxs hy).result F (no_index (Proc.devRef .tc r)) = F (Proc.devRef .tc r) := by
  rw [nary_result_ne]; exact h

end Cert.Nary5

/-- The same reading as `after_results5` in ONE simplifier pass (each shared subterm visited once). -/
macro "after_results_simp5" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.Nary5.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Cert.Nary5.nary4_result_ne', Cert.Nary5.nary5_result_ne', Idealize.ShloMosaic.StableHlo.nary_result_ne',
      Idealize.ShloMosaic.StableHlo.unaryIndexed_result_ne', Idealize.ShloMosaic.StableHlo.binaryIndexed_result_ne']))

/-- The buffers after a literal straight line of host operations, read at a reference: each operation's result at its
    own buffer is its function of its operands, any other buffer is untouched — rewritten outermost first, five- and
    four-operand operations included. -/
macro "after_results5" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [Cert.Nary5.nary5_result]
               | rw [Idealize.ShloMosaic.StableHlo.nary4_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide)
               | (rw [Idealize.ShloMosaic.StableHlo.binaryIndexed_result_ne]; rotate_left; decide)
               | (rw [Idealize.ShloMosaic.StableHlo.unaryIndexed_result_ne]; rotate_left; decide))))

end
-- ==== Proof.IdealResult.lean ====
import proofs.«157880_j12292196401295_2_alg».proof.Proof.IdealRowSums
import proofs.«157880_j12292196401295_2_alg».proof.Proof.Combine
import proofs.«157880_j12292196401295_2_alg».proof.Proof.LibNary5

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Cert.Combine (combine)

variable (mI : (ℓ : Loc nD τ sig) → Buf (Elt Ideal) ℓ)

/-! ## The kernel's result

After the region the program slices the 64 x 4 result into its four columns, takes square roots of the
second and fourth, and combines them with the five statistics computed before the region. -/
set_option maxHeartbeats 32000000 in
theorem kernel_result (c : Dev nD) :
    Pipeline.afterTail₀ cfgs (dats (F := Ideal) mI) 0 (V0 mI) [hostOps1] c main_v70
      = combine h_S_ bcast_S_S1 concatenates_S1_S1_S1_S1_S1_S5_d0 bcast_S5_S64x5_1 bcast_S64_S64x1_0
          concatenates_S64x1_S64x1_S64x1_S64x1_S64x4_d1 concatenates_S64x5_S64x4_S64x9_d1 bcast_S_S64x9 reducesTo_S64x9_S_d0_1
          (V mI c main_v6) (V mI c main_v22) (V mI c main_v29) (V mI c main_v34) (V mI c main_v37)
          (shapeCast S64 (extractStridedSlice S64x1 ![0, 0] (finalSums mI c) slices_S64x4_S64x1_0_0) shapeCasts_S64x1_S64)
          (Host.sqrt (shapeCast S64 (extractStridedSlice S64x1 ![0, 1] (finalSums mI c) slices_S64x4_S64x1_0_1) shapeCasts_S64x1_S64))
          (shapeCast S64 (extractStridedSlice S64x1 ![0, 2] (finalSums mI c) slices_S64x4_S64x1_0_2) shapeCasts_S64x1_S64)
          (Host.sqrt (shapeCast S64 (extractStridedSlice S64x1 ![0, 3] (finalSums mI c) slices_S64x4_S64x1_0_3) shapeCasts_S64x1_S64))
          (V mI c main_arg4) := by
  unfold Pipeline.afterTail₀
  simp only [List.flatten_cons, List.flatten_nil, List.append_nil]
  generalize hW : Pipeline.withArrays (cfgs 0).spec c (V0 mI c) (fun w => (dats (F := Ideal) mI 0 c).arrAt w (cfgs 0).N) = W
  after_results5
  have e38 : W (Proc.devRef .tc main_v38) = finalSums mI c := by
    rw [← hW]; exact (Pipeline.withArrays_arr spec0 launch0.win.arr_inj c _ _ 2).trans (final_sums mI c)
  have e_main_v6 : W (Proc.devRef .tc main_v6) = V mI c main_v6 := by
    rw [← hW]; exact Pipeline.withArrays_of_ne _ c (V0 mI c) _ main_v6 (by decide)
  have e_main_v22 : W (Proc.devRef .tc main_v22) = V mI c main_v22 := by
    rw [← hW]; exact Pipeline.withArrays_of_ne _ c (V0 mI c) _ main_v22 (by decide)
  have e_main_v29 : W (Proc.devRef .tc main_v29) = V mI c main_v29 := by
    rw [← hW]; exact Pipeline.withArrays_of_ne _ c (V0 mI c) _ main_v29 (by decide)
  have e_main_v34 : W (Proc.devRef .tc main_v34) = V mI c main_v34 := by
    rw [← hW]; exact Pipeline.withArrays_of_ne _ c (V0 mI c) _ main_v34 (by decide)
  have e_main_v37 : W (Proc.devRef .tc main_v37) = V mI c main_v37 := by
    rw [← hW]; exact Pipeline.withArrays_of_ne _ c (V0 mI c) _ main_v37 (by decide)
  have e_main_arg4 : W (Proc.devRef .tc main_arg4) = V mI c main_arg4 := by
    rw [← hW]; exact Pipeline.withArrays_of_ne _ c (V0 mI c) _ main_arg4 (by decide)
  rw [e38, e_main_v6, e_main_v22, e_main_v29, e_main_v34, e_main_v37, e_main_arg4]
  rfl

end Cert.KernelIdealHand

end
-- ==== Proof.IdealNorms.lean ====
import proofs.«157880_j12292196401295_2_alg».proof.Proof.IdealRowSums

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-! ## The four columns of the result, as vectors over the 64 rows -/

/-- Column 0 of the result as a vector, at row `R`: the whole-row sum of term 0. -/
theorem column0_apply (c : Dev nD) (R : Fin 64) :
    shapeCast S64 (extractStridedSlice S64x1 ![0, 0] (finalSums mI c) slices_S64x4_S64x1_0_0) shapeCasts_S64x1_S64 (ix1 R)
      = ∑ k : Fin 500000, laneTerm 0 (matP mI c (ix2 R k)) (matQ mI c (ix2 R k)) := by
  rw [shapeCast_apply _ shapeCasts_S64x1_S64 (ix1 R) (ix2 R (0 : Fin 1))
    (by rw [Shape.rowMajor_val_two, Shape.rowMajor_val_one]; show R.val * 1 + 0 = R.val; omega)]
  rw [extractStridedSlice_apply ![0, 0] (finalSums mI c) slices_S64x4_S64x1_0_0 (ix2 R (0 : Fin 1)) (ix2 R (0 : Fin 4))
    (fun a => by match a with | ⟨0, _⟩ => show R.val = 0 + R.val; omega | ⟨1, _⟩ => show (0 : ℕ) = 0 + 0; rfl)]
  exact rowSums_eq mI c R 0

/-- Column 1 of the result as a vector, at row `R`: the whole-row sum of term 1. -/
theorem column1_apply (c : Dev nD) (R : Fin 64) :
    shapeCast S64 (extractStridedSlice S64x1 ![0, 1] (finalSums mI c) slices_S64x4_S64x1_0_1) shapeCasts_S64x1_S64 (ix1 R)
      = ∑ k : Fin 500000, laneTerm 1 (matP mI c (ix2 R k)) (matQ mI c (ix2 R k)) := by
  rw [shapeCast_apply _ shapeCasts_S64x1_S64 (ix1 R) (ix2 R (0 : Fin 1))
    (by rw [Shape.rowMajor_val_two, Shape.rowMajor_val_one]; show R.val * 1 + 0 = R.val; omega)]
  rw [extractStridedSlice_apply ![0, 1] (finalSums mI c) slices_S64x4_S64x1_0_1 (ix2 R (0 : Fin 1)) (ix2 R (1 : Fin 4))
    (fun a => by match a with | ⟨0, _⟩ => show R.val = 0 + R.val; omega | ⟨1, _⟩ => show (1 : ℕ) = 1 + 0; rfl)]
  exact rowSums_eq mI c R 1

/-- Column 2 of the result as a vector, at row `R`: the whole-row sum of term 2. -/
theorem column2_apply (c : Dev nD) (R : Fin 64) :
    shapeCast S64 (extractStridedSlice S64x1 ![0, 2] (finalSums mI c) slices_S64x4_S64x1_0_2) shapeCasts_S64x1_S64 (ix1 R)
      = ∑ k : Fin 500000, laneTerm 2 (matP mI c (ix2 R k)) (matQ mI c (ix2 R k)) := by
  rw [shapeCast_apply _ shapeCasts_S64x1_S64 (ix1 R) (ix2 R (0 : Fin 1))
    (by rw [Shape.rowMajor_val_two, Shape.rowMajor_val_one]; show R.val * 1 + 0 = R.val; omega)]
  rw [extractStridedSlice_apply ![0, 2] (finalSums mI c) slices_S64x4_S64x1_0_2 (ix2 R (0 : Fin 1)) (ix2 R (2 : Fin 4))
    (fun a => by match a with | ⟨0, _⟩ => show R.val = 0 + R.val; omega | ⟨1, _⟩ => show (2 : ℕ) = 2 + 0; rfl)]
  exact rowSums_eq mI c R 2

/-- Column 3 of the result as a vector, at row `R`: the whole-row sum of term 3. -/
theorem column3_apply (c : Dev nD) (R : Fin 64) :
    shapeCast S64 (extractStridedSlice S64x1 ![0, 3] (finalSums mI c) slices_S64x4_S64x1_0_3) shapeCasts_S64x1_S64 (ix1 R)
      = ∑ k : Fin 500000, laneTerm 3 (matP mI c (ix2 R k)) (matQ mI c (ix2 R k)) := by
  rw [shapeCast_apply _ shapeCasts_S64x1_S64 (ix1 R) (ix2 R (0 : Fin 1))
    (by rw [Shape.rowMajor_val_two, Shape.rowMajor_val_one]; show R.val * 1 + 0 = R.val; omega)]
  rw [extractStridedSlice_apply ![0, 3] (finalSums mI c) slices_S64x4_S64x1_0_3 (ix2 R (0 : Fin 1)) (ix2 R (3 : Fin 4))
    (fun a => by match a with | ⟨0, _⟩ => show R.val = 0 + R.val; omega | ⟨1, _⟩ => show (3 : ℕ) = 3 + 0; rfl)]
  exact rowSums_eq mI c R 3

end Cert.KernelIdealHand

end
-- ==== Proof.IdealValueRun.lean ====
import proofs.«157880_j12292196401295_2_alg».proof.Proof.IdealAccumulate

set_option maxRecDepth 16384

noncomputable section

namespace Cert.KernelIdealHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with the result named: the loss buffer ends at what the later host operations compute from the region's result and the statistics; the five arguments end as they began. -/
theorem value_run : θ_run defs (onTc (τ := τ) (main (F := F))) ⟨m, fun _ => 0, ρ⟩ (fun r => ∀ c : Dev nD,
      r.2.mem ((c.tc : Thread nD τ).loc main_v70) = Pipeline.afterTail₀ cfgs (dats m) 0 (V0 m) [hostOps1] c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c).2 main_v70 (Pipeline.mem_restRefs_of main_v70 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans (((dats m 0 c).arrAt_in 0 rfl _).trans ((A_eq m c 0).trans (V_main_arg2 m c))),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c)⟩) (run_main m ρ)

end Cert.KernelIdealHand

end
-- ==== Proof.RefSplit.lean ====
import proofs.«157880_j12292196401295_2_alg».proof.Proof.RefRun
import Idealize.ShloMosaic.Lib.Pipeline.Frame

set_option maxRecDepth 16384

noncomputable section

namespace Cert.ReferenceIdealHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The reference in two stretches: the batch statistics, then the row norms and the combination

The first 116 operations compute the five batch statistics of the logits (the last of them the
logits' norm); the remaining 41 compute the four row norms and combine the nine columns. -/

abbrev opsStats : List (HloOp τ sig (Elt F)) := (ops (F := F)).take 116
abbrev opsRest : List (HloOp τ sig (Elt F)) := (ops (F := F)).drop 116

theorem ops_split : (ops : List (HloOp τ sig (Elt F))) = opsStats ++ opsRest := (List.take_append_drop 116 ops).symm

/-- A core's buffers after the statistics stretch. -/
abbrev SV (m : (ℓ : Loc nD τ sig) → Buf (Elt F) ℓ) (c : Dev nD) : Valuation τ sig (Elt F) :=
  StableHlo.after opsStats (launchContents m c)

theorem RV_split (m : (ℓ : Loc nD τ sig) → Buf (Elt F) ℓ) (c : Dev nD) :
    RV m c = StableHlo.after opsRest (SV m c) := by
  show StableHlo.after ops _ = _
  rw [ops_split, StableHlo.after_append]

end Cert.ReferenceIdealHand

end
-- ==== Proof.RefResult.lean ====
import proofs.«157880_j12292196401295_2_alg».proof.Proof.RefSplit
import proofs.«157880_j12292196401295_2_alg».proof.Proof.Combine
import proofs.«157880_j12292196401295_2_alg».proof.Proof.LibNary5

set_option maxRecDepth 16384

noncomputable section

namespace Cert.ReferenceIdealHand

open Cert.ReferenceIdeal Cert.ReferenceIdeal.Gen Cert.ReferenceIdeal.ValueP
open Idealize.ShloMosaic Idealize.ShloMosaic.TcCoe Idealize.SL.Sem Idealize.ShloMosaic.StableHlo
open Cert.Combine (combine)

/-! ## The reference's result

After the statistics the reference sums |P|, P², |P − Q|, (P − Q)² along each row of the two parameter
matrices, takes square roots of the second and fourth sums, and combines the nine columns. -/
set_option maxHeartbeats 64000000 in
theorem ref_result (m : (ℓ : Loc nD τ sig) → Buf (Elt Ideal) ℓ) (c : Dev nD) :
    RV (F := Ideal) m c (Proc.devRef .tc main_v70)
      = combine h_S_ bcast_S_S1 concatenates_S1_S1_S1_S1_S1_S5_d0 bcast_S5_S64x5_1 bcast_S64_S64x1_0
          concatenates_S64x1_S64x1_S64x1_S64x1_S64x4_d1 concatenates_S64x5_S64x4_S64x9_d1 bcast_S_S64x9 reducesTo_S64x9_S_d0_1
          (SV (F := Ideal) m c (Proc.devRef .tc main_v6)) (SV (F := Ideal) m c (Proc.devRef .tc main_v22)) (SV (F := Ideal) m c (Proc.devRef .tc main_v29))
          (SV (F := Ideal) m c (Proc.devRef .tc main_v34)) (SV (F := Ideal) m c (Proc.devRef .tc main_v37))
          (Host.reduceAdd (Host.absf (SV (F := Ideal) m c (Proc.devRef .tc main_arg2))) (constant (F := Ideal) S_ .f32 0x00000000#32) reducesTo_S64x500000_S64_d1 h_S_)
          (Host.sqrt (Host.reduceAdd (mulf (SV (F := Ideal) m c (Proc.devRef .tc main_arg2)) (SV (F := Ideal) m c (Proc.devRef .tc main_arg2))) (constant (F := Ideal) S_ .f32 0x00000000#32) reducesTo_S64x500000_S64_d1 h_S_))
          (Host.reduceAdd (Host.absf (subf (SV (F := Ideal) m c (Proc.devRef .tc main_arg2)) (SV (F := Ideal) m c (Proc.devRef .tc main_arg3)))) (constant (F := Ideal) S_ .f32 0x00000000#32) reducesTo_S64x500000_S64_d1 h_S_)
          (Host.sqrt (Host.reduceAdd (mulf (subf (SV (F := Ideal) m c (Proc.devRef .tc main_arg2)) (SV (F := Ideal) m c (Proc.devRef .tc main_arg3))) (subf (SV (F := Ideal) m c (Proc.devRef .tc main_arg2)) (SV (F := Ideal) m c (Proc.devRef .tc main_arg3)))) (constant (F := Ideal) S_ .f32 0x00000000#32) reducesTo_S64x500000_S64_d1 h_S_))
          (SV (F := Ideal) m c (Proc.devRef .tc main_arg4)) := by
  rw [RV_split]
  generalize SV (F := Ideal) m c = W
  simp only [opsRest, ops, List.drop_succ_cons, List.drop_zero]
  after_results5
  rfl

end Cert.ReferenceIdealHand

end
-- ==== Proof.RefNorms.lean ====
import proofs.«157880_j12292196401295_2_alg».proof.Proof.RefSplit
import proofs.«157880_j12292196401295_2_alg».proof.Proof.LibRowOps
import Idealize.ShloMosaic.PureOps.Ideal.Laws
import Idealize.ShloMosaic.Lib.ValueIdx

noncomputable section

namespace Cert.ReferenceIdealHand

open Cert.ReferenceIdeal Cert.ReferenceIdeal.Gen
open Idealize.ShloMosaic Idealize.ShloMosaic.ValueIdx

/-- The reference's sum along each row of a 64 x 500000 array, started from the zero word, at row `R`: the row's sum. -/
theorem rowSum_apply (X : FVec Ideal S64x500000 .f32) (R : Fin 64) :
    Host.reduceAdd X (constant (F := Ideal) S_ .f32 0x00000000#32) reducesTo_S64x500000_S64_d1 h_S_ (ix1 R)
      = ∑ k : Fin 500000, X (ix2 R k) := by
  simp only [Host.reduceAdd, Ideal.hostReduceAdd_def]
  refine (Cert.RowOps.hostRowSum_apply X reducesTo_S64x500000_S64_d1 (by decide) _ R).trans ?_
  have h0 : (constant (F := Ideal) S_ .f32 0x00000000#32) (Shape.Idx.first h_S_) = 0 := Ideal.ofBits_zero_f32
  rw [h0, zero_add]

end Cert.ReferenceIdealHand

end
-- ==== Proof.BridgeTypes.lean ====
import proofs.«157880_j12292196401295_2_alg».proof.Proof.IdealEntry
import proofs.«157880_j12292196401295_2_alg».proof.Proof.RefSplit
import Idealize.ShloMosaic.PureOps.Ideal
import Idealize.ShloMosaic.PureOps.Ideal.Laws

noncomputable section

namespace Cert.Bridge

open Idealize.ShloMosaic Idealize.SL.Sem

/-- A launch memory of the kernel's program, and of the reference, at the extended reals. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

end Cert.Bridge

end
-- ==== Proof.StatsA.lean ====
import proofs.«157880_j12292196401295_2_alg».proof.Proof.BridgeTypes

set_option maxRecDepth 16384

noncomputable section

namespace Cert.Bridge

open Idealize.ShloMosaic Idealize.ShloMosaic.TcCoe Idealize.SL.Sem Idealize.ShloMosaic.StableHlo

/-! ## The two programs compute the batch statistics alike

The kernel's program and the reference compute the statistics of the logits by the same operations in
the same order from the same two arrays; and neither stretch writes an argument array. -/

set_option maxHeartbeats 64000000 in
/-- The cross-entropy of the logits against the targets. -/
theorem stat_crossEntropy (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdealHand.SV (F := Ideal) m' c (Proc.devRef .tc Cert.ReferenceIdeal.main_v6)
      = Cert.KernelIdealHand.V (F := Ideal) m c Cert.KernelIdeal.main_v6 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  simp only [e0, e1]
  try rfl

set_option maxHeartbeats 64000000 in
/-- The multi-class hinge loss. -/
theorem stat_hinge (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdealHand.SV (F := Ideal) m' c (Proc.devRef .tc Cert.ReferenceIdeal.main_v22)
      = Cert.KernelIdealHand.V (F := Ideal) m c Cert.KernelIdeal.main_v22 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  simp only [e0, e1]
  try rfl

set_option maxHeartbeats 64000000 in
/-- The divergence of the soft-max from the uniform distribution. -/
theorem stat_divergence (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdealHand.SV (F := Ideal) m' c (Proc.devRef .tc Cert.ReferenceIdeal.main_v29)
      = Cert.KernelIdealHand.V (F := Ideal) m c Cert.KernelIdeal.main_v29 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e0 : launchContents m' c (Proc.devRef .tc Cert.ReferenceIdeal.main_arg0) = m (c, Proc.devRef .tc Cert.KernelIdeal.main_arg0) := h0
  simp only [e0]
  try rfl

set_option maxHeartbeats 64000000 in
/-- The entropy of the soft-max. -/
theorem stat_entropy (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdealHand.SV (F := Ideal) m' c (Proc.devRef .tc Cert.ReferenceIdeal.main_v34)
      = Cert.KernelIdealHand.V (F := Ideal) m c Cert.KernelIdeal.main_v34 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e0 : launchContents m' c (Proc.devRef .tc Cert.ReferenceIdeal.main_arg0) = m (c, Proc.devRef .tc Cert.KernelIdeal.main_arg0) := h0
  simp only [e0]
  try rfl

end Cert.Bridge

end
-- ==== Proof.StatsB.lean ====
import proofs.«157880_j12292196401295_2_alg».proof.Proof.BridgeTypes

set_option maxRecDepth 16384

noncomputable section

namespace Cert.Bridge

open Idealize.ShloMosaic Idealize.ShloMosaic.TcCoe Idealize.SL.Sem Idealize.ShloMosaic.StableHlo

/-! ## The two programs compute the batch statistics alike

The kernel's program and the reference compute the statistics of the logits by the same operations in
the same order from the same two arrays; and neither stretch writes an argument array. -/

set_option maxHeartbeats 64000000 in
/-- The norm of the logits. -/
theorem stat_energy (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdealHand.SV (F := Ideal) m' c (Proc.devRef .tc Cert.ReferenceIdeal.main_v37)
      = Cert.KernelIdealHand.V (F := Ideal) m c Cert.KernelIdeal.main_v37 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e0 : launchContents m' c (Proc.devRef .tc Cert.ReferenceIdeal.main_arg0) = m (c, Proc.devRef .tc Cert.KernelIdeal.main_arg0) := h0
  simp only [e0]
  try rfl

set_option maxHeartbeats 64000000 in
/-- The first parameter matrix comes through the statistics untouched. -/
theorem read_arg2 (m : KMem) (m' : RMem) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdealHand.SV (F := Ideal) m' c (Proc.devRef .tc Cert.ReferenceIdeal.main_arg2)
      = Cert.KernelIdealHand.V (F := Ideal) m c Cert.KernelIdeal.main_arg2 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e2 : launchContents m' c (Proc.devRef .tc Cert.ReferenceIdeal.main_arg2) = m (c, Proc.devRef .tc Cert.KernelIdeal.main_arg2) := h2
  simp only [e2]
  try rfl

set_option maxHeartbeats 64000000 in
/-- The second parameter matrix too. -/
theorem read_arg3 (m : KMem) (m' : RMem) (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdealHand.SV (F := Ideal) m' c (Proc.devRef .tc Cert.ReferenceIdeal.main_arg3)
      = Cert.KernelIdealHand.V (F := Ideal) m c Cert.KernelIdeal.main_arg3 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e3 : launchContents m' c (Proc.devRef .tc Cert.ReferenceIdeal.main_arg3) = m (c, Proc.devRef .tc Cert.KernelIdeal.main_arg3) := h3
  simp only [e3]
  try rfl

set_option maxHeartbeats 64000000 in
/-- And the weights. -/
theorem read_arg4 (m : KMem) (m' : RMem) (c : Dev Cert.KernelIdeal.nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdealHand.SV (F := Ideal) m' c (Proc.devRef .tc Cert.ReferenceIdeal.main_arg4)
      = Cert.KernelIdealHand.V (F := Ideal) m c Cert.KernelIdeal.main_arg4 := by
  dsimp only [Cert.ReferenceIdealHand.SV, Cert.ReferenceIdealHand.opsStats, Cert.KernelIdealHand.V, Cert.KernelIdealHand.V0]
  simp only [Cert.ReferenceIdeal.ValueP.ops, List.take_succ_cons, List.take_zero, Cert.KernelIdealHand.preOps,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  have e4 : launchContents m' c (Proc.devRef .tc Cert.ReferenceIdeal.main_arg4) = m (c, Proc.devRef .tc Cert.KernelIdeal.main_arg4) := h4
  simp only [e4]
  try rfl

end Cert.Bridge

end
-- ==== Proof.Equivalence.lean ====
import proofs.«157880_j12292196401295_2_alg».proof.Proof.IdealResult
import proofs.«157880_j12292196401295_2_alg».proof.Proof.IdealNorms
import proofs.«157880_j12292196401295_2_alg».proof.Proof.IdealValueRun
import proofs.«157880_j12292196401295_2_alg».proof.Proof.RefResult
import proofs.«157880_j12292196401295_2_alg».proof.Proof.RefNorms
import proofs.«157880_j12292196401295_2_alg».proof.Proof.StatsA
import proofs.«157880_j12292196401295_2_alg».proof.Proof.StatsB

set_option maxRecDepth 16384

noncomputable section

namespace Cert.Bridge

open Idealize.ShloMosaic Idealize.ShloMosaic.TcCoe Idealize.SL.Sem Idealize.ShloMosaic.ValueIdx

/-! ## The two results are one

Both programs combine nine columns in the same way. The five statistics are computed alike; the
weights are the same array; and each of the four row sums the kernel accumulates over twenty masked
column tiles is the reference's sum along the whole row, started from zero. -/

/-- Sum 0 of every row: the reference's whole-row sum is the kernel's column 0. -/
theorem norm0_eq (m : KMem) (c : Dev Cert.KernelIdeal.nD) :
    (Host.reduceAdd (Host.absf (Cert.KernelIdealHand.V (F := Ideal) m c Cert.KernelIdeal.main_arg2)) (constant (F := Ideal) Cert.ReferenceIdeal.S_ .f32 0x00000000#32) Cert.ReferenceIdeal.Gen.reducesTo_S64x500000_S64_d1 Cert.ReferenceIdeal.Gen.h_S_) = (shapeCast Cert.KernelIdeal.S64 (extractStridedSlice Cert.KernelIdeal.S64x1 ![0, 0] (Cert.KernelIdealHand.finalSums m c) Cert.KernelIdeal.Gen.slices_S64x4_S64x1_0_0) Cert.KernelIdeal.Gen.shapeCasts_S64x1_S64) := by
  funext i
  obtain ⟨R, rfl⟩ : ∃ R : Fin 64, i = ix1 R := ⟨i 0, eq_ix1 i⟩
  rw [Cert.ReferenceIdealHand.rowSum_apply, Cert.KernelIdealHand.column0_apply]
  exact Finset.sum_congr rfl fun k _ => rfl

/-- Sum 1 of every row: the reference's whole-row sum is the kernel's column 1. -/
theorem norm1_eq (m : KMem) (c : Dev Cert.KernelIdeal.nD) :
    (Host.reduceAdd (mulf (Cert.KernelIdealHand.V (F := Ideal) m c Cert.KernelIdeal.main_arg2) (Cert.KernelIdealHand.V (F := Ideal) m c Cert.KernelIdeal.main_arg2)) (constant (F := Ideal) Cert.ReferenceIdeal.S_ .f32 0x00000000#32) Cert.ReferenceIdeal.Gen.reducesTo_S64x500000_S64_d1 Cert.ReferenceIdeal.Gen.h_S_) = (shapeCast Cert.KernelIdeal.S64 (extractStridedSlice Cert.KernelIdeal.S64x1 ![0, 1] (Cert.KernelIdealHand.finalSums m c) Cert.KernelIdeal.Gen.slices_S64x4_S64x1_0_1) Cert.KernelIdeal.Gen.shapeCasts_S64x1_S64) := by
  funext i
  obtain ⟨R, rfl⟩ : ∃ R : Fin 64, i = ix1 R := ⟨i 0, eq_ix1 i⟩
  rw [Cert.ReferenceIdealHand.rowSum_apply, Cert.KernelIdealHand.column1_apply]
  exact Finset.sum_congr rfl fun k _ => rfl

/-- Sum 2 of every row: the reference's whole-row sum is the kernel's column 2. -/
theorem norm2_eq (m : KMem) (c : Dev Cert.KernelIdeal.nD) :
    (Host.reduceAdd (Host.absf (subf (Cert.KernelIdealHand.V (F := Ideal) m c Cert.KernelIdeal.main_arg2) (Cert.KernelIdealHand.V (F := Ideal) m c Cert.KernelIdeal.main_arg3))) (constant (F := Ideal) Cert.ReferenceIdeal.S_ .f32 0x00000000#32) Cert.ReferenceIdeal.Gen.reducesTo_S64x500000_S64_d1 Cert.ReferenceIdeal.Gen.h_S_) = (shapeCast Cert.KernelIdeal.S64 (extractStridedSlice Cert.KernelIdeal.S64x1 ![0, 2] (Cert.KernelIdealHand.finalSums m c) Cert.KernelIdeal.Gen.slices_S64x4_S64x1_0_2) Cert.KernelIdeal.Gen.shapeCasts_S64x1_S64) := by
  funext i
  obtain ⟨R, rfl⟩ : ∃ R : Fin 64, i = ix1 R := ⟨i 0, eq_ix1 i⟩
  rw [Cert.ReferenceIdealHand.rowSum_apply, Cert.KernelIdealHand.column2_apply]
  exact Finset.sum_congr rfl fun k _ => rfl

/-- Sum 3 of every row: the reference's whole-row sum is the kernel's column 3. -/
theorem norm3_eq (m : KMem) (c : Dev Cert.KernelIdeal.nD) :
    (Host.reduceAdd (mulf (subf (Cert.KernelIdealHand.V (F := Ideal) m c Cert.KernelIdeal.main_arg2) (Cert.KernelIdealHand.V (F := Ideal) m c Cert.KernelIdeal.main_arg3)) (subf (Cert.KernelIdealHand.V (F := Ideal) m c Cert.KernelIdeal.main_arg2) (Cert.KernelIdealHand.V (F := Ideal) m c Cert.KernelIdeal.main_arg3))) (constant (F := Ideal) Cert.ReferenceIdeal.S_ .f32 0x00000000#32) Cert.ReferenceIdeal.Gen.reducesTo_S64x500000_S64_d1 Cert.ReferenceIdeal.Gen.h_S_) = (shapeCast Cert.KernelIdeal.S64 (extractStridedSlice Cert.KernelIdeal.S64x1 ![0, 3] (Cert.KernelIdealHand.finalSums m c) Cert.KernelIdeal.Gen.slices_S64x4_S64x1_0_3) Cert.KernelIdeal.Gen.shapeCasts_S64x1_S64) := by
  funext i
  obtain ⟨R, rfl⟩ : ∃ R : Fin 64, i = ix1 R := ⟨i 0, eq_ix1 i⟩
  rw [Cert.ReferenceIdealHand.rowSum_apply, Cert.KernelIdealHand.column3_apply]
  exact Finset.sum_congr rfl fun k _ => rfl

set_option maxHeartbeats 4000000 in
/-- From memories that agree on the five arguments, the reference's loss is the kernel's. -/
theorem result_eq (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdealHand.RV (F := Ideal) m' c (Proc.devRef .tc Cert.ReferenceIdeal.main_v70)
      = Pipeline.afterTail₀ Cert.KernelIdeal.cfgs (Cert.KernelIdealHand.dats (F := Ideal) m) 0 (Cert.KernelIdealHand.V0 m) [Cert.KernelIdeal.Gen.hostOps1] c Cert.KernelIdeal.main_v70 := by
  rw [Cert.ReferenceIdealHand.ref_result, Cert.KernelIdealHand.kernel_result]
  rw [stat_crossEntropy m m' c h0 h1, stat_hinge m m' c h0 h1, stat_divergence m m' c h0, stat_entropy m m' c h0, stat_energy m m' c h0,
    read_arg2 m m' c h2, read_arg3 m m' c h3, read_arg4 m m' c h4]
  rw [norm0_eq m c, norm1_eq m c, norm2_eq m c, norm3_eq m c]

end Cert.Bridge

end
-- ==== Proof.lean ====
/-
  The program computes a weighted average of nine loss columns. Five columns are batch statistics of the
  logits (cross-entropy, hinge, divergence from uniform, entropy, the logits' norm), computed by host
  operations; four are row norms of two 64 x 500000 parameter matrices (the 1-norm and 2-norm of each row of
  the first, and of the rows' difference), which the kernel accumulates over twenty column tiles per row half
  and the reference sums a whole row at a time.

  Frames: the kernel's, at the word level and idealized, is one development generic in the float
  instance (the running sums named point by point, the lanes past the matrix's end masked off); the
  reference's is its straight line of host operations.
-/
import proofs.«157880_j12292196401295_2_alg».proof.Defs
import proofs.«157880_j12292196401295_2_alg».proof.Proof.Gen.Kernel
import proofs.«157880_j12292196401295_2_alg».proof.Proof.Gen.KernelIdeal
import proofs.«157880_j12292196401295_2_alg».proof.Proof.Gen.ReferenceIdeal
import proofs.«157880_j12292196401295_2_alg».proof.Proof.Gen.Pre_finite_inputs
import proofs.«157880_j12292196401295_2_alg».proof.Proof.WordAccumulate
import proofs.«157880_j12292196401295_2_alg».proof.Proof.IdealAccumulate
import proofs.«157880_j12292196401295_2_alg».proof.Proof.RefRun
import proofs.«157880_j12292196401295_2_alg».proof.Proof.Equivalence
import Idealize.ShloMosaic.Adequacy
import Idealize.ShloMosaic.Init

noncomputable section

namespace Cert.Proof

open Idealize.ShloMosaic Idealize.SL.Sem

theorem frame_word : Cert.frame_Kernel := fun m ρ _ => Cert.KernelHand.frame (F := Bits) m ρ
theorem frame_ideal : Cert.frame_KernelIdeal := fun m ρ _ => Cert.KernelIdealHand.frame (F := Ideal) m ρ
theorem frame_reference : Cert.frame_ReferenceIdeal := fun m ρ _ => Cert.ReferenceIdealHand.frame (F := Ideal) m ρ

/-- The idealization rewrote nothing. -/
theorem preserves : Cert.preserves_Kernel_KernelIdeal := trivial

/-- At the extended reals the two programs end with the same loss: the kernel's run names it, the reference's run reaches the same value (`Cert.Bridge.result_eq`). -/
theorem algebraic : Cert.algebraic_KernelIdeal_ReferenceIdeal :=
  fun m ρ m' ρ' _ hagree =>
    ⟨fun c => Pipeline.afterTail₀ Cert.KernelIdeal.cfgs (Cert.KernelIdealHand.dats (F := Ideal) m) 0 (Cert.KernelIdealHand.V0 m) [Cert.KernelIdeal.Gen.hostOps1] c Cert.KernelIdeal.main_v70,
      Cert.KernelIdealHand.value_run (F := Ideal) m ρ,
      (θ_run Cert.ReferenceIdeal.defs _ _).mono (fun _ h c =>
        ⟨(h c Cert.ReferenceIdeal.main_v70).trans (Cert.Bridge.result_eq m m' c (hagree c).1 (hagree c).2.1 (hagree c).2.2.1 (hagree c).2.2.2.1 (hagree c).2.2.2.2),
          (h c Cert.ReferenceIdeal.main_arg0).trans (Cert.ReferenceIdealHand.kept m' c).1,
          (h c Cert.ReferenceIdeal.main_arg1).trans (Cert.ReferenceIdealHand.kept m' c).2.1,
          (h c Cert.ReferenceIdeal.main_arg2).trans (Cert.ReferenceIdealHand.kept m' c).2.2.1,
          (h c Cert.ReferenceIdeal.main_arg3).trans (Cert.ReferenceIdealHand.kept m' c).2.2.2.1,
          (h c Cert.ReferenceIdeal.main_arg4).trans (Cert.ReferenceIdealHand.kept m' c).2.2.2.2⟩)
        (Cert.ReferenceIdealHand.run_after (F := Ideal) m' ρ')⟩

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
